-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3 : Shape := ⟨2, ![4096, 3]⟩
abbrev S_ : Shape := ⟨0, ![]⟩

class Facts : Prop where
  bcast_S_S4096x3 : S_.BroadcastsInDim S4096x3 (![] : Fin 0 → Fin S4096x3.rank)
  reducesTo_S4096x3_S_d0_1 : S4096x3.ReducesTo [0, 1] S_
  h_S_ : 0 < S_.numel

variable [Facts]

def fn {F : FTy → Type} [FloatOps F] (main_arg0 : FVec F S4096x3 .f32) : IVec S_ 1 :=
  let main_v0 : FVec F S4096x3 .f32 := Host.absf main_arg0
  let main_cst : FVec F S_ .f32 := constant S_ .f32 0x7F800000#32
  let main_v1 : FVec F S4096x3 .f32 := broadcastInDim S4096x3 ![] bcast_S_S4096x3 main_cst
  let main_v2 : IVec S4096x3 1 := cmpf .olt main_v0 main_v1
  let main_c : IVec S_ 1 := constantI S_ 1 1#1
  let main_v3 : IVec S_ 1 := (fun x v => Host.reduce IntOp.andi x v reducesTo_S4096x3_S_d0_1 h_S_) main_v2 main_c
  main_v3
-- ==== Kernel.lean ====
abbrev S4096x3 : Shape := ⟨2, ![4096, 3]⟩
abbrev S4096x4096 : Shape := ⟨2, ![4096, 4096]⟩
abbrev S512x3 : Shape := ⟨2, ![512, 3]⟩
abbrev S512x4096 : Shape := ⟨2, ![512, 4096]⟩
abbrev S3x4096 : Shape := ⟨2, ![3, 4096]⟩
abbrev S1x4096 : Shape := ⟨2, ![1, 4096]⟩
abbrev S512x1 : Shape := ⟨2, ![512, 1]⟩
abbrev S512x512 : Shape := ⟨2, ![512, 512]⟩

abbrev nBuf : Space → Nat
  | .hbm => 2
  | .vmem => 7
  | .smem => 0
  | _ => 0

abbrev bufTy : (tb : Table) → Fin (tcTables nBuf tb) → BufTy
  | .hbm, ⟨0, _⟩ => ⟨S4096x3, .f32⟩
  | .hbm, ⟨1, _⟩ => ⟨S4096x4096, .f32⟩
  | .local _ .vmem, ⟨0, _⟩ => ⟨S512x3, .f32⟩
  | .local _ .vmem, ⟨1, _⟩ => ⟨S512x3, .f32⟩
  | .local _ .vmem, ⟨2, _⟩ => ⟨S4096x3, .f32⟩
  | .local _ .vmem, ⟨3, _⟩ => ⟨S512x4096, .f32⟩
  | .local _ .vmem, ⟨4, _⟩ => ⟨S512x4096, .f32⟩
  | .local _ .vmem, ⟨5, _⟩ => ⟨S3x4096, .bf16⟩
  | .local _ .vmem, ⟨6, _⟩ => ⟨S1x4096, .f32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0_13 : Index := 0#32
  let arg0 : BitVec 32 := BitVec.ofNat 32 (i 0).val
  let c512_i32 : BitVec 32 := 512#32
  let v30 : BitVec 32 := Scalar.muli arg0 c512_i32
  let v37 : Index := Scalar.indexCast v30
  ![0, v37.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x3_S4096x3_0_0 : ∀ a, (![0, 0] : Fin 2 → Nat) a + S4096x3.size a ≤ S4096x3.size a
  h_S4096x3 : 0 < S4096x3.numel
  transposes_S4096x3_p1_0_S3x4096 : S4096x3.Transposes [1, 0] S3x4096
  bitsLt_bf16_f32 : FTy.bits .bf16 < FTy.bits .f32
  inb_S3x4096_S3x4096_0_0 : ∀ a, (![0, 0] : Fin 2 → Nat) a + S3x4096.size a ≤ S3x4096.size a
  h_S3x4096 : 0 < S3x4096.numel
  shapeCasts_S3x4096_S3x4096 : S3x4096.ShapeCasts S3x4096
  packedbf16_S3x4096_S3x4096_0_0 : (Rect.unit (s := S3x4096) ![0, 0] S3x4096.size inb_S3x4096_S3x4096_0_0).PackedRows (EltTy.packing .bf16)
  slices_S3x4096_o0_0_S1x4096 : S3x4096.Slices ![0, 0] S1x4096
  slices_S3x4096_o1_0_S1x4096 : S3x4096.Slices ![1, 0] S1x4096
  slices_S3x4096_o2_0_S1x4096 : S3x4096.Slices ![2, 0] S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S512x3_S512x3_0_0 : ∀ a, (![0, 0] : Fin 2 → Nat) a + S512x3.size a ≤ S512x3.size a
  h_S512x3 : 0 < S512x3.numel
  slices_S512x3_o0_0_S512x1 : S512x3.Slices ![0, 0] S512x1
  slices_S512x3_o0_1_S512x1 : S512x3.Slices ![0, 1] S512x1
  slices_S512x3_o0_2_S512x1 : S512x3.Slices ![0, 2] S512x1
  broadcasts_S512x1_S512x4096 : S512x1.Broadcasts S512x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  iota_S512x512_d0_w32 : S512x512.Iotas .tc 32 [0]
  iota_S512x512_d1_w32 : S512x512.Iotas .tc 32 [1]
  h_S512x512 : 0 < S512x512.numel
  shapeCasts_S512x512_S512x512 : S512x512.ShapeCasts S512x512
  dot_S512x3_S3x4096_S512x4096_1_0_0_1_n_n_wf : DotDims.WF S512x3 S3x4096 S512x4096 [1] [0] [0] [1] [] []
  hrank0 : 0 < grid0.rank
  k0_off1_inb : ∀ i : grid0.Coords, ∀ a, (k0_off1 i) a + S512x512.size a ≤ S512x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3.size a ≤ S4096x3.size a
  hwx0_0 : ∀ i : grid0.Coords, EltTy.bits .f32 = 32 ∨ (Rect.block (s := S4096x3) S512x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x3.size a ≤ S4096x3.size a
  hwx0_1 : ∀ i : grid0.Coords, EltTy.bits .f32 = 32 ∨ (Rect.block (s := S4096x3) S4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .f32 = 32 ∨ (Rect.block (s := S4096x4096) S512x4096.size (cc0_transform_2 i) (hinb0_2 i)).WholeWords (EltTy.packing .f32)

variable [Facts₀]

def dot_S512x3_S3x4096_S512x4096_1_0_0_1_n_n : DotDims S512x3 S3x4096 S512x4096 where
  lhsContracting := [1]
  rhsContracting := [0]
  lhsNonContracting := [0]
  rhsNonContracting := [1]
  lhsBatch := []
  rhsBatch := []
  wf := dot_S512x3_S3x4096_S512x4096_1_0_0_1_n_n_wf

abbrev win0_0 : Pipeline.Window sig grid0 :=
  Pipeline.Window.ofSpec (Memref.whole main_arg0) S512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x3 : Shape := ⟨2, ![4096, 3]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S3x4096 : Shape := ⟨2, ![3, 4096]⟩

abbrev nBuf : Space → Nat
  | .hbm => 38
  | .vmem => 0
  | .smem => 0
  | _ => 0

abbrev bufTy : (tb : Table) → Fin (tcTables nBuf tb) → BufTy
  | .hbm, ⟨0, _⟩ => ⟨S4096x3, .f32⟩
  | .hbm, ⟨1, _⟩ => ⟨S4096x3, .f32⟩
  | .hbm, ⟨2, _⟩ => ⟨S_, .f32⟩
  | .hbm, ⟨3, _⟩ => ⟨S4096, .f32⟩
  | .hbm, ⟨4, _⟩ => ⟨S4096x1, .f32⟩
  | .hbm, ⟨5, _⟩ => ⟨S1x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S3x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .i32⟩
  | .hbm, ⟨19, _⟩ => ⟨S4096x4096, .i32⟩
  | .hbm, ⟨20, _⟩ => ⟨S_, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S4096x4096, .f32⟩
  | .hbm, ⟨26, _⟩ => ⟨S4096x4096, .i1⟩
  | .hbm, ⟨27, _⟩ => ⟨S4096x4096, .i1⟩
  | .hbm, ⟨28, _⟩ => ⟨S4096x4096, .i1⟩
  | .hbm, ⟨29, _⟩ => ⟨S_, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S_, .f32⟩
  | .hbm, ⟨36, _⟩ => ⟨S4096x4096, .f32⟩
  | .hbm, ⟨37, _⟩ => ⟨S4096x4096, .f32⟩
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  reducesTo_S4096x3_S4096_d1 : S4096x3.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x3_S3x4096_1_0 : S4096x3.Transposes [1, 0] S3x4096
  bcast_S_S4096x4096 : S_.BroadcastsInDim S4096x4096 (![] : Fin 0 → Fin S4096x4096.rank)
  dot_S4096x3_S3x4096_S4096x4096_1_0_0_1_n_n_wf : DotDims.WF S4096x3 S3x4096 S4096x4096 [1] [0] [0] [1] [] []

variable [Facts₀]

def dot_S4096x3_S3x4096_S4096x4096_1_0_0_1_n_n : DotDims S4096x3 S3x4096 S4096x4096 where
  lhsContracting := [1]
  rhsContracting := [0]
  lhsNonContracting := [0]
  rhsNonContracting := [1]
  lhsBatch := []
  rhsBatch := []
  wf := dot_S4096x3_S3x4096_S4096x4096_1_0_0_1_n_n_wf

class Facts : Prop extends Facts₀ where

variable [Facts]
-- ==== Proof.Word.Setup.lean ====
/-
  The neighbour-distance kernel, point by point: what every point's run is stated over.
  The grid has eight points; point t handles rows [512 t, 512 t + 512) of the 4096 x 4096 result. The kernel takes the
  positions twice: once as the point's 512 x 3 block of rows, once whole (4096 x 3, fetched at the first point only). At the
  first point (and there only) it writes its two scratch buffers from the whole array: the transposed coordinates scaled
  by -2, and the row of squared norms; every point then reads them. Here: the arrays as the region finds them, each
  window's block at a point, the branch condition in closed form, and the staging and scratch memrefs by name.
-/
import proofs.«143828_g38766374814086_cont_8to1_b_1182_20_alg».proof.Proof.Gen.Kernel.Launch
import proofs.«143828_g38766374814086_cont_8to1_b_1182_20_alg».proof.Proof.Gen.Kernel.Skeleton
import proofs.«143828_g38766374814086_cont_8to1_b_1182_20_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The core's buffers when the region is entered: as launched (the program is the region alone). -/
abbrev V (c : Dev nD) (b : Ref sig .tc) : Buf (Elt F) ((c : Thread nD τ).loc b) := m ((c : Thread nD τ).loc b)

/-- The program up to the region is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-block window's staging buffer holds its block at every point. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The whole-array window's staging buffer holds the whole array at every point: fetched at the first, and its
    block index never moves afterwards. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The body's one branch: "this is the first grid point", as the body computes it from the coordinate. -/
abbrev cond0 (i : grid0.Coords) : Prop := (Scalar.cmpi .ne (Scalar.extui (Scalar.cmpi .eq (BitVec.ofNat 32 (i 0).val) 0#32)) 0#32) = 1#1
/-- It holds at point 0 and at no other. -/
theorem hcond0 : ∀ t : Fin cfg0.N, cond0 (grid0.coords t) ↔ t.val = 0 :=
  (by decide +kernel : ∀ t : Fin grid0.N, cond0 (grid0.coords t) ↔ t.val = 0)

/-- No window is ever idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-- Each window's current staging memref at point `t`, and its wholeness. -/
abbrev ms0 (t : Fin cfg0.N) : Memref sig .tc .vmem S512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x4096 .f32 := win0_2.stage (cfg0.slots t 2)
abbrev hs2 (t : Fin cfg0.N) : (ms2 t).IsWhole := hstage0_2 ((cfg0.slots t 2).cast nbuf0_2)
/-- The two scratch buffers: the scaled transposed coordinates (3 x 4096) and the squared norms (1 x 4096). -/
abbrev scT : Memref sig .tc .vmem S3x4096 .bf16 := Memref.whole cc0_scratch0
abbrev scN : Memref sig .tc .vmem S1x4096 .f32 := Memref.whole cc0_scratch1
/-- Views through which the output block's and the scratch buffers' contents are stated. -/
abbrev VO : View sig .tc .vmem S512x4096 .f32 := (Memref.whole cc0_stg2_0 : Memref sig .tc .vmem S512x4096 .f32).view
abbrev VT : View sig .tc .vmem S3x4096 .bf16 := scT.view
abbrev VN : View sig .tc .vmem S1x4096 .f32 := scN.view

end Cert.Kernel.Body

end
-- ==== Proof.Word.FirstPoint.lean ====
/-
  The body at the first grid point. The branch is taken: the whole array is loaded, the scaled transposed coordinates
  and the squared norms are stored into the two scratch buffers, and then the point's block of the result is written —
  whole first, then its 512 x 512 diagonal square again, multiplied by the mask that is 0 on the diagonal. What each
  buffer ends with is recorded as the list of pieces stored into it, last first.
-/
import proofs.«143828_g38766374814086_cont_8to1_b_1182_20_alg».proof.Proof.Word.Setup

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs — the two inputs at their contents, the output block and both scratch buffers at anything — the
    body at a point where the branch holds runs to a state with the inputs as they were and the pieces written into
    the output block and into each scratch buffer. -/
noncomputable def runFirst (c : Dev nD) (i : grid0.Coords) (arg1 : Memref sig .tc .vmem S512x3 .f32) (harg1 : arg1.IsWhole) (arg2 : Memref sig .tc .vmem S4096x3 .f32) (harg2 : arg2.IsWhole) (arg3 : Memref sig .tc .vmem S512x4096 .f32) (harg3 : arg3.IsWhole) (arg4 : Memref sig .tc .vmem S3x4096 .bf16) (harg4 : arg4.IsWhole) (arg5 : Memref sig .tc .vmem S1x4096 .f32) (harg5 : arg5.IsWhole) (hc : cond0 i)
    (x0 : Vec F S512x3 .f32) (x1 : Vec F S4096x3 .f32) :
    Σ' (L3 : List (View.Piece (Elt F) S512x4096 .f32)) (L4 : List (View.Piece (Elt F) S3x4096 .bf16)), { L5 : List (View.Piece (Elt F) S1x4096 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3)
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)) -∗ K ⟨⟩))
          ⊢ wp frame (wpE (defs₀ (F := F)) Variants.none c none) E (cc0__nbr_kernel i arg1 harg1 arg2 harg2 arg3 harg3 arg4 harg4 arg5 harg5) K } := by
  refine ⟨?_, ?_, ?_, fun E K => ?run⟩
  case run =>
    simp only [cc0__nbr_kernel_eq_skeleton]; unfold cc0__nbr_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

end Cert.Kernel.Body

end
-- ==== Proof.Word.LaterPoint.lean ====
/-
  The body at a later grid point. The branch is not taken: the scratch buffers are only read (they hold what the first
  point stored), and the point's block of the result is written — whole first, then its 512 x 512 diagonal square
  again, multiplied by the mask that is 0 on the diagonal.
-/
import proofs.«143828_g38766374814086_cont_8to1_b_1182_20_alg».proof.Proof.Word.FirstPoint

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs — the two inputs and both scratch buffers at their contents, the output block at anything — the
    body at a point where the branch fails runs to a state with the inputs and the scratch as they were and the
    pieces written into the output block. -/
noncomputable def runLater (c : Dev nD) (i : grid0.Coords) (arg1 : Memref sig .tc .vmem S512x3 .f32) (harg1 : arg1.IsWhole) (arg2 : Memref sig .tc .vmem S4096x3 .f32) (harg2 : arg2.IsWhole) (arg3 : Memref sig .tc .vmem S512x4096 .f32) (harg3 : arg3.IsWhole) (arg4 : Memref sig .tc .vmem S3x4096 .bf16) (harg4 : arg4.IsWhole) (arg5 : Memref sig .tc .vmem S1x4096 .f32) (harg5 : arg5.IsWhole) (hc : ¬cond0 i)
    (x0 : Vec F S512x3 .f32) (x1 : Vec F S4096x3 .f32) (xT : Vec F S3x4096 .bf16) (xN : Vec F S1x4096 .f32) :
    { L3 : List (View.Piece (Elt F) S512x4096 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xT ∗ owns (c : Thread nD τ) arg5 fullShare xN
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3)
                ∗ owns (c : Thread nD τ) arg4 fullShare xT ∗ owns (c : Thread nD τ) arg5 fullShare xN) -∗ K ⟨⟩))
          ⊢ wp frame (wpE (defs₀ (F := F)) Variants.none c none) E (cc0__nbr_kernel i arg1 harg1 arg2 harg2 arg3 harg3 arg4 harg4 arg5 harg5) K } := by
  refine ⟨?_, fun E K => ?run⟩
  case run =>
    simp only [cc0__nbr_kernel_eq_skeleton]; unfold cc0__nbr_kernel_skel
    simp only [k0_part1_eq_skeleton]
    unfold owns
    iintro ⟨⟨%f0, %hf0, H0⟩, ⟨%f1, %hf1, H1⟩, ⟨%d2, %f2, -, H2⟩, ⟨%f3, %hf3, H3⟩, ⟨%f4, %hf4, H4⟩, Hk⟩
    obtain rfl := harg1.eq_unread hf0; obtain rfl := harg2.eq_unread hf1
    obtain rfl := harg4.eq_unread hf3; obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; isplitr; · ipureintro; exact harg5.read_unread _
    iexact H4

end Cert.Kernel.Body

end
-- ==== Proof.Word.Frame.lean ====
/-
  The run of the whole region. What the buffers hold after each point: the two scratch buffers hold, from the first
  point on, what the first point stored (a function of the whole array of positions alone); the result's staging block
  holds the point's pieces. The positions are handed to the region through two windows; each window holds the array at
  half of the full share, so that both can read it, and the two halves are joined again when the region ends — the
  positions therefore end as they began. The invariant between points says what the scratch buffers hold.
-/
import proofs.«143828_g38766374814086_cont_8to1_b_1182_20_alg».proof.Proof.Word.LaterPoint

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
abbrev tz : Fin cfg0.N := t0_0
theorem hcz : cond0 (grid0.coords tz) := (hcond0 tz).mpr rfl

/-! ## Covers -/

/-- The first point's pieces for the result's block include a store of the whole block. -/
theorem coverO_first (c : Dev nD) (i : grid0.Coords) (arg1 : Memref sig .tc .vmem S512x3 .f32) (harg1 : arg1.IsWhole) (arg2 : Memref sig .tc .vmem S4096x3 .f32) (harg2 : arg2.IsWhole) (arg3 : Memref sig .tc .vmem S512x4096 .f32) (harg3 : arg3.IsWhole) (arg4 : Memref sig .tc .vmem S3x4096 .bf16) (harg4 : arg4.IsWhole) (arg5 : Memref sig .tc .vmem S1x4096 .f32) (harg5 : arg5.IsWhole) (hc : cond0 i)
    (x0 : Vec F S512x3 .f32) (x1 : Vec F S4096x3 .f32) (y : S512x4096.Idx) :
    ∃ pc ∈ (runFirst c i arg1 harg1 arg2 harg2 arg3 harg3 arg4 harg4 arg5 harg5 hc x0 x1).1, y ∈ pc.1.set :=
  View.cover_of_wholeMem (runFirst c i arg1 harg1 arg2 harg2 arg3 harg3 arg4 harg4 arg5 harg5 hc x0 x1).1 (by sl_whole_mem) y

/-- Its piece for the scaled transposed coordinates is the whole scratch buffer. -/
theorem coverT (c : Dev nD) (i : grid0.Coords) (arg1 : Memref sig .tc .vmem S512x3 .f32) (harg1 : arg1.IsWhole) (arg2 : Memref sig .tc .vmem S4096x3 .f32) (harg2 : arg2.IsWhole) (arg3 : Memref sig .tc .vmem S512x4096 .f32) (harg3 : arg3.IsWhole) (arg4 : Memref sig .tc .vmem S3x4096 .bf16) (harg4 : arg4.IsWhole) (arg5 : Memref sig .tc .vmem S1x4096 .f32) (harg5 : arg5.IsWhole) (hc : cond0 i)
    (x0 : Vec F S512x3 .f32) (x1 : Vec F S4096x3 .f32) (y : S3x4096.Idx) :
    ∃ pc ∈ (runFirst c i arg1 harg1 arg2 harg2 arg3 harg3 arg4 harg4 arg5 harg5 hc x0 x1).2.1, y ∈ pc.1.set :=
  View.cover_of_wholeMem (runFirst c i arg1 harg1 arg2 harg2 arg3 harg3 arg4 harg4 arg5 harg5 hc x0 x1).2.1 (by sl_whole_mem) y

/-- Its piece for the squared norms is the whole scratch buffer. -/
theorem coverN (c : Dev nD) (i : grid0.Coords) (arg1 : Memref sig .tc .vmem S512x3 .f32) (harg1 : arg1.IsWhole) (arg2 : Memref sig .tc .vmem S4096x3 .f32) (harg2 : arg2.IsWhole) (arg3 : Memref sig .tc .vmem S512x4096 .f32) (harg3 : arg3.IsWhole) (arg4 : Memref sig .tc .vmem S3x4096 .bf16) (harg4 : arg4.IsWhole) (arg5 : Memref sig .tc .vmem S1x4096 .f32) (harg5 : arg5.IsWhole) (hc : cond0 i)
    (x0 : Vec F S512x3 .f32) (x1 : Vec F S4096x3 .f32) (y : S1x4096.Idx) :
    ∃ pc ∈ (runFirst c i arg1 harg1 arg2 harg2 arg3 harg3 arg4 harg4 arg5 harg5 hc x0 x1).2.2.1, y ∈ pc.1.set :=
  View.cover_of_wholeMem (runFirst c i arg1 harg1 arg2 harg2 arg3 harg3 arg4 harg4 arg5 harg5 hc x0 x1).2.2.1 (by sl_whole_mem) y

/-- A later point's pieces for the result's block include a store of the whole block. -/
theorem coverO_later (c : Dev nD) (i : grid0.Coords) (arg1 : Memref sig .tc .vmem S512x3 .f32) (harg1 : arg1.IsWhole) (arg2 : Memref sig .tc .vmem S4096x3 .f32) (harg2 : arg2.IsWhole) (arg3 : Memref sig .tc .vmem S512x4096 .f32) (harg3 : arg3.IsWhole) (arg4 : Memref sig .tc .vmem S3x4096 .bf16) (harg4 : arg4.IsWhole) (arg5 : Memref sig .tc .vmem S1x4096 .f32) (harg5 : arg5.IsWhole) (hc : ¬cond0 i)
    (x0 : Vec F S512x3 .f32) (x1 : Vec F S4096x3 .f32) (xT : Vec F S3x4096 .bf16) (xN : Vec F S1x4096 .f32) (y : S512x4096.Idx) :
    ∃ pc ∈ (runLater c i arg1 harg1 arg2 harg2 arg3 harg3 arg4 harg4 arg5 harg5 hc x0 x1 xT xN).1, y ∈ pc.1.set :=
  View.cover_of_wholeMem (runLater c i arg1 harg1 arg2 harg2 arg3 harg3 arg4 harg4 arg5 harg5 hc x0 x1 xT xN).1 (by sl_whole_mem) y

/-! ## What the buffers hold -/

/-- The scaled transposed coordinates, as the first point leaves them in scratch. -/
def scratchT (c : Dev nD) : Vec F S3x4096 .bf16 :=
  VT.read (Elt F) (VT.writes (Elt F) VT.junk (runFirst c (grid0.coords tz) (ms0 tz) (hs0 tz) (ms1 tz) (hs1 tz) (ms2 tz) (hs2 tz) scT (Memref.isWhole_whole _) scN (Memref.isWhole_whole _) hcz (iblk m c 0 tz) (iblk m c 1 tz)).2.1)

/-- The squared norms, as the first point leaves them in scratch. -/
def scratchN (c : Dev nD) : Vec F S1x4096 .f32 :=
  VN.read (Elt F) (VN.writes (Elt F) VN.junk (runFirst c (grid0.coords tz) (ms0 tz) (hs0 tz) (ms1 tz) (hs1 tz) (ms2 tz) (hs2 tz) scT (Memref.isWhole_whole _) scN (Memref.isWhole_whole _) hcz (iblk m c 0 tz) (iblk m c 1 tz)).2.2.1)

/-- The result's staging block after point `t`. -/
def outAt (c : Dev nD) (t : Fin cfg0.N) : Vec F S512x4096 .f32 :=
  if h : t.val = 0 then
    VO.read (Elt F) (VO.writes (Elt F) VO.junk (runFirst c (grid0.coords t) (ms0 t) (hs0 t) (ms1 t) (hs1 t) (ms2 t) (hs2 t) scT (Memref.isWhole_whole _) scN (Memref.isWhole_whole _) ((hcond0 t).mpr h) (iblk m c 0 t) (iblk m c 1 t)).1)
  else
    VO.read (Elt F) (VO.writes (Elt F) VO.junk (runLater c (grid0.coords t) (ms0 t) (hs0 t) (ms1 t) (hs1 t) (ms2 t) (hs2 t) scT (Memref.isWhole_whole _) scN (Memref.isWhole_whole _) (fun hh => h ((hcond0 t).mp hh)) (iblk m c 0 t) (iblk m c 1 t) (scratchT m c) (scratchN m c)).1)

theorem outAt_first (c : Dev nD) (t : Fin cfg0.N) (h : t.val = 0) : outAt m c t =
    VO.read (Elt F) (VO.writes (Elt F) VO.junk (runFirst c (grid0.coords t) (ms0 t) (hs0 t) (ms1 t) (hs1 t) (ms2 t) (hs2 t) scT (Memref.isWhole_whole _) scN (Memref.isWhole_whole _) ((hcond0 t).mpr h) (iblk m c 0 t) (iblk m c 1 t)).1) := dif_pos h

theorem outAt_later (c : Dev nD) (t : Fin cfg0.N) (h : ¬t.val = 0) : outAt m c t =
    VO.read (Elt F) (VO.writes (Elt F) VO.junk (runLater c (grid0.coords t) (ms0 t) (hs0 t) (ms1 t) (hs1 t) (ms2 t) (hs2 t) scT (Memref.isWhole_whole _) scN (Memref.isWhole_whole _) (fun hh => h ((hcond0 t).mp hh)) (iblk m c 0 t) (iblk m c 1 t) (scratchT m c) (scratchN m c)).1) := dif_neg h

/-- The invariant between points: before the first point the scratch buffers hold anything; after it, what the first
    point stored. -/
def PhiS (c : Dev nD) (n : ℕ) : sProp 𝕄 :=
  if n = 0 then iprop((∃ d, owns (c : Thread nD τ) scT fullShare d) ∗ (∃ d, owns (c : Thread nD τ) scN fullShare d))
  else iprop(owns (c : Thread nD τ) scT fullShare (scratchT m c) ∗ owns (c : Thread nD τ) scN fullShare (scratchN m c))

theorem PhiS_zero (c : Dev nD) : PhiS m c 0 = iprop((∃ d, owns (c : Thread nD τ) scT fullShare d) ∗ (∃ d, owns (c : Thread nD τ) scN fullShare d)) := if_pos rfl
theorem PhiS_pos (c : Dev nD) (n : ℕ) (h : n ≠ 0) : PhiS m c n = iprop(owns (c : Thread nD τ) scT fullShare (scratchT m c) ∗ owns (c : Thread nD τ) scN fullShare (scratchN m c)) := if_neg h

/-! ## The proof data -/

/-- Per core: the arrays as the region finds them; what each window's staging buffer holds after the body (an input's:
    its block; the result's: the point's pieces); the invariant; the two input windows each at one half of the share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4000000 in
/-- The body at any point: the inputs' buffers hold their blocks; at the first point the scratch holds anything and
    ends at what the first point stores, at a later point it holds that and is only read. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) from rfl, PhiS_pos m c (t.val + 1) (Nat.succ_ne_zero _)]
  rw [show (dats m 0 c).Φ t.castSucc = PhiS m c t.val from rfl]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  by_cases hz : t.val = 0
  · obtain rfl : t = tz := Fin.ext hz
    rw [show (tz : Fin cfg0.N).val = 0 from rfl, PhiS_zero, outAt_first m c tz rfl]
    iintro ⟨⟨HT, HN⟩, Ho, ⟨%d0, H0⟩, ⟨%d1, H1⟩, ⟨%d2, H2⟩⟩
    iapply ((runFirst c (grid0.coords tz) (ms0 tz) (hs0 tz) (ms1 tz) (hs1 tz) (ms2 tz) (hs2 tz) scT (Memref.isWhole_whole _) scN (Memref.isWhole_whole _) hcz (iblk m c 0 tz) (iblk m c 1 tz)).2.2.2 Set.univ _)
    isplitl [H0]; · iexact H0
    isplitl [H1]; · iexact H1
    isplitl [H2]; · iexists _; iexact H2
    isplitl [HT]; · iexact HT
    isplitl [HN]; · iexact HN
    iintro ⟨H0, H1, ⟨%e2, H2⟩, ⟨%e3, H3⟩, ⟨%e4, H4⟩⟩
    isplitl [H3 H4]
    · isplitl [H3]
      · unfold owns; iexists _; isplitr
        swap; · iexact H3
        ipureintro; exact View.read_writes_of_cover _ _ _ _ _ (coverT c _ _ _ _ _ _ _ _ _ _ _ _ _ _)
      · unfold owns; iexists _; isplitr
        swap; · iexact H4
        ipureintro; exact View.read_writes_of_cover _ _ _ _ _ (coverN c _ _ _ _ _ _ _ _ _ _ _ _ _ _)
    isplitl [Ho]; · iexact Ho
    isplitl [H0]; · iexact H0
    isplitl [H1]; · iexact H1
    unfold owns; iexists _; isplitr
    swap; · iexact H2
    ipureintro; exact View.read_writes_of_cover _ _ _ _ _ (coverO_first c _ _ _ _ _ _ _ _ _ _ _ _ _ _)
  · rw [PhiS_pos m c t.val hz, outAt_later m c t hz]
    iintro ⟨⟨HT, HN⟩, Ho, ⟨%d0, H0⟩, ⟨%d1, H1⟩, ⟨%d2, H2⟩⟩
    iapply ((runLater c (grid0.coords t) (ms0 t) (hs0 t) (ms1 t) (hs1 t) (ms2 t) (hs2 t) scT (Memref.isWhole_whole _) scN (Memref.isWhole_whole _) (fun hh => hz ((hcond0 t).mp hh)) (iblk m c 0 t) (iblk m c 1 t) (scratchT m c) (scratchN m c)).2 Set.univ _)
    isplitl [H0]; · iexact H0
    isplitl [H1]; · iexact H1
    isplitl [H2]; · iexists _; iexact H2
    isplitl [HT]; · iexact HT
    isplitl [HN]; · iexact HN
    iintro ⟨H0, H1, ⟨%e2, H2⟩, HT, HN⟩
    isplitl [HT HN]
    · isplitl [HT]; · iexact HT
      iexact HN
    isplitl [Ho]; · iexact Ho
    isplitl [H0]; · iexact H0
    isplitl [H1]; · iexact H1
    unfold owns; iexists _; isplitr
    swap; · iexact H2
    ipureintro; exact View.read_writes_of_cover _ _ _ _ _ (coverO_later c _ _ _ _ _ _ _ _ _ _ _ _ _ _ _ _)

/-- The body obligation at every point. -/
theorem body_obligation (c : Dev nD) : BodyObligation (dats (F := F) m 0 c) (defs₀ (F := F)) Variants.none () Set.univ := fun t => by
  rw [bigSep_W0, bigSep_W0]
  exact sound_body m c t

/-! ## Entering and leaving the region -/

/-- The scratch buffers, each whole at some contents, are the invariant before the first point. -/
theorem hin (c : Dev nD) : iprop((BI.emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 from rfl, PhiS_zero, scopedRest0_eq]
  simp only [scT, scN, owns_whole]
  iintro ⟨-, H⟩; iexact H

/-- After the last point the invariant gives the scratch buffers back. -/
theorem hout (c : Dev nD) : (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val from rfl,
    PhiS_pos m c _ (by rw [Fin.val_last]; have : cfg0.N = 8 := N_0; omega), scopedRest0_eq]
  simp only [scT, scN, owns_whole]
  iintro ⟨HT, HN⟩
  isplitr; · iempintro
  isplitl [HT]
  · iexists _; iexact HT
  iexists _; iexact HN

end Cert.Kernel.Body

end
-- ==== Proof.Word.Region.lean ====
/-
  The region launched. The positions' buffer, held whole at the full share when the region is entered, is split into
  its two half shares, one for each of the two windows that read it; the result's buffer is held outright. Every
  weakly fair execution then terminates, and each window's array ends at what the write-backs of the eight points
  leave: the positions unchanged (an input is never written), the result at the blocks the points flushed.
-/
import proofs.«143828_g38766374814086_cont_8to1_b_1182_20_alg».proof.Proof.Word.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays — the positions and the result, each whole at the full share — are the
    windows' arrays at their shares: the positions' full share is its left half and its right half. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  classical
  have hform : (dats m 0 c).arrays ((dats m 0 c).arrAt · 0)
      = bigSep Finset.univ fun w => (((c.tc : Thread nD τ).loc (Pipeline.arrRef spec0 w)) ↦{(dats m 0 c).share w} (dats m 0 c).arrAt w 0 : sProp 𝕄) := by
    unfold Dat.arrays
    exact bigSep_congr fun w _ => by rw [(arr_whole0 w).set_eq_univ]
  rw [hform]
  unfold Pipeline.arrBufs
  rw [bigSep_W0, bigSep_eq_bigSepL_of_eq [main_arg0, main_v0] (by decide) (by decide)]
  show iprop((((c.tc : Thread nD τ).loc main_arg0) ↦{fullShare} V m c main_arg0) ∗ (((c.tc : Thread nD τ).loc main_v0) ↦{fullShare} V m c main_v0))
    ⊢ iprop((((c.tc : Thread nD τ).loc main_arg0) ↦{fullShare.left} V m c main_arg0)
        ∗ (((c.tc : Thread nD τ).loc main_arg0) ↦{fullShare.right} V m c main_arg0)
        ∗ (((c.tc : Thread nD τ).loc main_v0) ↦{fullShare} V m c main_v0))
  iintro ⟨Ha, Hv⟩
  ihave Ha' := (pointsTo_share (PosShare.mem_left_op_right fullShare)).1 $$ Ha
  icases Ha' with ⟨Hl, Hr⟩
  isplitl [Hl]; · iexact Hl
  isplitl [Hr]; · iexact Hr
  iexact Hv

set_option backward.isDefEq.respectTransparency.types false in
/-- Every weakly fair execution of the program terminates, and each window's array ends at what the points' write-backs
    leave of it. -/
theorem run_main : θ_run defs (onTc (τ := τ) (main (F := F))) ⟨m, fun _ => 0, ρ⟩
    (fun r => ∀ c : Dev nD, ∀ w : Fin cfg0.W, r.2.mem ((cfg0.win w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp)) (Z := fun _ => iprop(emp))
    (hX := fun c => by rw [unscopedRest0_eq]; iintro -; isplitl <;> iempintro)
    (hin := hin m) (hout := hout m)
    (QY := fun _ _ => True)
    (hY := fun c s' => by
      iintro ⟨-, -, HSI⟩; imodintro
      isplitr; · ipureintro; trivial
      iexact HSI)
    (hQ := fun s h c w => (h c).1 w)

/-- The program runs to the end, faults nowhere, and the positions end as they began: an input window's array is never
    written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c 0).trans (((dats m 0 c).arrAt_in 0 rfl _).trans ((A_eq m c 0).trans (V_main_arg0 m c)))) (run_main m ρ)

end Cert.Kernel.Body

end
-- ==== Proof.Ideal.Setup.lean ====
/-
  The neighbour-distance kernel, point by point: what every point's run is stated over.
  The grid has eight points; point t handles rows [512 t, 512 t + 512) of the 4096 x 4096 result. The kernel takes the
  positions twice: once as the point's 512 x 3 block of rows, once whole (4096 x 3, fetched at the first point only). At the
  first point (and there only) it writes its two scratch buffers from the whole array: the transposed coordinates scaled
  by -2, and the row of squared norms; every point then reads them. Here: the arrays as the region finds them, each
  window's block at a point, the branch condition in closed form, and the staging and scratch memrefs by name.
-/
import proofs.«143828_g38766374814086_cont_8to1_b_1182_20_alg».proof.Proof.Gen.KernelIdeal.Launch
import proofs.«143828_g38766374814086_cont_8to1_b_1182_20_alg».proof.Proof.Gen.KernelIdeal.Skeleton
import proofs.«143828_g38766374814086_cont_8to1_b_1182_20_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The core's buffers when the region is entered: as launched (the program is the region alone). -/
abbrev V (c : Dev nD) (b : Ref sig .tc) : Buf (Elt F) ((c : Thread nD τ).loc b) := m ((c : Thread nD τ).loc b)

/-- The program up to the region is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-block window's staging buffer holds its block at every point. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The whole-array window's staging buffer holds the whole array at every point: fetched at the first, and its
    block index never moves afterwards. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The body's one branch: "this is the first grid point", as the body computes it from the coordinate. -/
abbrev cond0 (i : grid0.Coords) : Prop := (Scalar.cmpi .ne (Scalar.extui (Scalar.cmpi .eq (BitVec.ofNat 32 (i 0).val) 0#32)) 0#32) = 1#1
/-- It holds at point 0 and at no other. -/
theorem hcond0 : ∀ t : Fin cfg0.N, cond0 (grid0.coords t) ↔ t.val = 0 :=
  (by decide +kernel : ∀ t : Fin grid0.N, cond0 (grid0.coords t) ↔ t.val = 0)

/-- No window is ever idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-- Each window's current staging memref at point `t`, and its wholeness. -/
abbrev ms0 (t : Fin cfg0.N) : Memref sig .tc .vmem S512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x4096 .f32 := win0_2.stage (cfg0.slots t 2)
abbrev hs2 (t : Fin cfg0.N) : (ms2 t).IsWhole := hstage0_2 ((cfg0.slots t 2).cast nbuf0_2)
/-- The two scratch buffers: the scaled transposed coordinates (3 x 4096) and the squared norms (1 x 4096). -/
abbrev scT : Memref sig .tc .vmem S3x4096 .bf16 := Memref.whole cc0_scratch0
abbrev scN : Memref sig .tc .vmem S1x4096 .f32 := Memref.whole cc0_scratch1
/-- Views through which the output block's and the scratch buffers' contents are stated. -/
abbrev VO : View sig .tc .vmem S512x4096 .f32 := (Memref.whole cc0_stg2_0 : Memref sig .tc .vmem S512x4096 .f32).view
abbrev VT : View sig .tc .vmem S3x4096 .bf16 := scT.view
abbrev VN : View sig .tc .vmem S1x4096 .f32 := scN.view

end Cert.KernelIdeal.Body

end
-- ==== Proof.Ideal.FirstPoint.lean ====
/-
  The body at the first grid point. The branch is taken: the whole array is loaded, the scaled transposed coordinates
  and the squared norms are stored into the two scratch buffers, and then the point's block of the result is written —
  whole first, then its 512 x 512 diagonal square again, multiplied by the mask that is 0 on the diagonal. What each
  buffer ends with is recorded as the list of pieces stored into it, last first.
-/
import proofs.«143828_g38766374814086_cont_8to1_b_1182_20_alg».proof.Proof.Ideal.Setup

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs — the two inputs at their contents, the output block and both scratch buffers at anything — the
    body at a point where the branch holds runs to a state with the inputs as they were and the pieces written into
    the output block and into each scratch buffer. -/
noncomputable def runFirst (c : Dev nD) (i : grid0.Coords) (arg1 : Memref sig .tc .vmem S512x3 .f32) (harg1 : arg1.IsWhole) (arg2 : Memref sig .tc .vmem S4096x3 .f32) (harg2 : arg2.IsWhole) (arg3 : Memref sig .tc .vmem S512x4096 .f32) (harg3 : arg3.IsWhole) (arg4 : Memref sig .tc .vmem S3x4096 .bf16) (harg4 : arg4.IsWhole) (arg5 : Memref sig .tc .vmem S1x4096 .f32) (harg5 : arg5.IsWhole) (hc : cond0 i)
    (x0 : Vec F S512x3 .f32) (x1 : Vec F S4096x3 .f32) :
    Σ' (L3 : List (View.Piece (Elt F) S512x4096 .f32)) (L4 : List (View.Piece (Elt F) S3x4096 .bf16)), { L5 : List (View.Piece (Elt F) S1x4096 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3)
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)) -∗ K ⟨⟩))
          ⊢ wp frame (wpE (defs₀ (F := F)) Variants.none c none) E (cc0__nbr_kernel i arg1 harg1 arg2 harg2 arg3 harg3 arg4 harg4 arg5 harg5) K } := by
  refine ⟨?_, ?_, ?_, fun E K => ?run⟩
  case run =>
    simp only [cc0__nbr_kernel_eq_skeleton]; unfold cc0__nbr_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

end Cert.KernelIdeal.Body

end
-- ==== Proof.Ideal.LaterPoint.lean ====
/-
  The body at a later grid point. The branch is not taken: the scratch buffers are only read (they hold what the first
  point stored), and the point's block of the result is written — whole first, then its 512 x 512 diagonal square
  again, multiplied by the mask that is 0 on the diagonal.
-/
import proofs.«143828_g38766374814086_cont_8to1_b_1182_20_alg».proof.Proof.Ideal.FirstPoint

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs — the two inputs and both scratch buffers at their contents, the output block at anything — the
    body at a point where the branch fails runs to a state with the inputs and the scratch as they were and the
    pieces written into the output block. -/
noncomputable def runLater (c : Dev nD) (i : grid0.Coords) (arg1 : Memref sig .tc .vmem S512x3 .f32) (harg1 : arg1.IsWhole) (arg2 : Memref sig .tc .vmem S4096x3 .f32) (harg2 : arg2.IsWhole) (arg3 : Memref sig .tc .vmem S512x4096 .f32) (harg3 : arg3.IsWhole) (arg4 : Memref sig .tc .vmem S3x4096 .bf16) (harg4 : arg4.IsWhole) (arg5 : Memref sig .tc .vmem S1x4096 .f32) (harg5 : arg5.IsWhole) (hc : ¬cond0 i)
    (x0 : Vec F S512x3 .f32) (x1 : Vec F S4096x3 .f32) (xT : Vec F S3x4096 .bf16) (xN : Vec F S1x4096 .f32) :
    { L3 : List (View.Piece (Elt F) S512x4096 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xT ∗ owns (c : Thread nD τ) arg5 fullShare xN
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3)
                ∗ owns (c : Thread nD τ) arg4 fullShare xT ∗ owns (c : Thread nD τ) arg5 fullShare xN) -∗ K ⟨⟩))
          ⊢ wp frame (wpE (defs₀ (F := F)) Variants.none c none) E (cc0__nbr_kernel i arg1 harg1 arg2 harg2 arg3 harg3 arg4 harg4 arg5 harg5) K } := by
  refine ⟨?_, fun E K => ?run⟩
  case run =>
    simp only [cc0__nbr_kernel_eq_skeleton]; unfold cc0__nbr_kernel_skel
    simp only [k0_part1_eq_skeleton]
    unfold owns
    iintro ⟨⟨%f0, %hf0, H0⟩, ⟨%f1, %hf1, H1⟩, ⟨%d2, %f2, -, H2⟩, ⟨%f3, %hf3, H3⟩, ⟨%f4, %hf4, H4⟩, Hk⟩
    obtain rfl := harg1.eq_unread hf0; obtain rfl := harg2.eq_unread hf1
    obtain rfl := harg4.eq_unread hf3; obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; isplitr; · ipureintro; exact harg5.read_unread _
    iexact H4

end Cert.KernelIdeal.Body

end
-- ==== Proof.Ideal.Frame.lean ====
/-
  The run of the whole region. What the buffers hold after each point: the two scratch buffers hold, from the first
  point on, what the first point stored (a function of the whole array of positions alone); the result's staging block
  holds the point's pieces. The positions are handed to the region through two windows; each window holds the array at
  half of the full share, so that both can read it, and the two halves are joined again when the region ends — the
  positions therefore end as they began. The invariant between points says what the scratch buffers hold.
-/
import proofs.«143828_g38766374814086_cont_8to1_b_1182_20_alg».proof.Proof.Ideal.LaterPoint

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
abbrev tz : Fin cfg0.N := t0_0
theorem hcz : cond0 (grid0.coords tz) := (hcond0 tz).mpr rfl

/-! ## Covers -/

/-- The first point's pieces for the result's block include a store of the whole block. -/
theorem coverO_first (c : Dev nD) (i : grid0.Coords) (arg1 : Memref sig .tc .vmem S512x3 .f32) (harg1 : arg1.IsWhole) (arg2 : Memref sig .tc .vmem S4096x3 .f32) (harg2 : arg2.IsWhole) (arg3 : Memref sig .tc .vmem S512x4096 .f32) (harg3 : arg3.IsWhole) (arg4 : Memref sig .tc .vmem S3x4096 .bf16) (harg4 : arg4.IsWhole) (arg5 : Memref sig .tc .vmem S1x4096 .f32) (harg5 : arg5.IsWhole) (hc : cond0 i)
    (x0 : Vec F S512x3 .f32) (x1 : Vec F S4096x3 .f32) (y : S512x4096.Idx) :
    ∃ pc ∈ (runFirst c i arg1 harg1 arg2 harg2 arg3 harg3 arg4 harg4 arg5 harg5 hc x0 x1).1, y ∈ pc.1.set :=
  View.cover_of_wholeMem (runFirst c i arg1 harg1 arg2 harg2 arg3 harg3 arg4 harg4 arg5 harg5 hc x0 x1).1 (by sl_whole_mem) y

/-- Its piece for the scaled transposed coordinates is the whole scratch buffer. -/
theorem coverT (c : Dev nD) (i : grid0.Coords) (arg1 : Memref sig .tc .vmem S512x3 .f32) (harg1 : arg1.IsWhole) (arg2 : Memref sig .tc .vmem S4096x3 .f32) (harg2 : arg2.IsWhole) (arg3 : Memref sig .tc .vmem S512x4096 .f32) (harg3 : arg3.IsWhole) (arg4 : Memref sig .tc .vmem S3x4096 .bf16) (harg4 : arg4.IsWhole) (arg5 : Memref sig .tc .vmem S1x4096 .f32) (harg5 : arg5.IsWhole) (hc : cond0 i)
    (x0 : Vec F S512x3 .f32) (x1 : Vec F S4096x3 .f32) (y : S3x4096.Idx) :
    ∃ pc ∈ (runFirst c i arg1 harg1 arg2 harg2 arg3 harg3 arg4 harg4 arg5 harg5 hc x0 x1).2.1, y ∈ pc.1.set :=
  View.cover_of_wholeMem (runFirst c i arg1 harg1 arg2 harg2 arg3 harg3 arg4 harg4 arg5 harg5 hc x0 x1).2.1 (by sl_whole_mem) y

/-- Its piece for the squared norms is the whole scratch buffer. -/
theorem coverN (c : Dev nD) (i : grid0.Coords) (arg1 : Memref sig .tc .vmem S512x3 .f32) (harg1 : arg1.IsWhole) (arg2 : Memref sig .tc .vmem S4096x3 .f32) (harg2 : arg2.IsWhole) (arg3 : Memref sig .tc .vmem S512x4096 .f32) (harg3 : arg3.IsWhole) (arg4 : Memref sig .tc .vmem S3x4096 .bf16) (harg4 : arg4.IsWhole) (arg5 : Memref sig .tc .vmem S1x4096 .f32) (harg5 : arg5.IsWhole) (hc : cond0 i)
    (x0 : Vec F S512x3 .f32) (x1 : Vec F S4096x3 .f32) (y : S1x4096.Idx) :
    ∃ pc ∈ (runFirst c i arg1 harg1 arg2 harg2 arg3 harg3 arg4 harg4 arg5 harg5 hc x0 x1).2.2.1, y ∈ pc.1.set :=
  View.cover_of_wholeMem (runFirst c i arg1 harg1 arg2 harg2 arg3 harg3 arg4 harg4 arg5 harg5 hc x0 x1).2.2.1 (by sl_whole_mem) y

/-- A later point's pieces for the result's block include a store of the whole block. -/
theorem coverO_later (c : Dev nD) (i : grid0.Coords) (arg1 : Memref sig .tc .vmem S512x3 .f32) (harg1 : arg1.IsWhole) (arg2 : Memref sig .tc .vmem S4096x3 .f32) (harg2 : arg2.IsWhole) (arg3 : Memref sig .tc .vmem S512x4096 .f32) (harg3 : arg3.IsWhole) (arg4 : Memref sig .tc .vmem S3x4096 .bf16) (harg4 : arg4.IsWhole) (arg5 : Memref sig .tc .vmem S1x4096 .f32) (harg5 : arg5.IsWhole) (hc : ¬cond0 i)
    (x0 : Vec F S512x3 .f32) (x1 : Vec F S4096x3 .f32) (xT : Vec F S3x4096 .bf16) (xN : Vec F S1x4096 .f32) (y : S512x4096.Idx) :
    ∃ pc ∈ (runLater c i arg1 harg1 arg2 harg2 arg3 harg3 arg4 harg4 arg5 harg5 hc x0 x1 xT xN).1, y ∈ pc.1.set :=
  View.cover_of_wholeMem (runLater c i arg1 harg1 arg2 harg2 arg3 harg3 arg4 harg4 arg5 harg5 hc x0 x1 xT xN).1 (by sl_whole_mem) y

/-! ## What the buffers hold -/

/-- The scaled transposed coordinates, as the first point leaves them in scratch. -/
def scratchT (c : Dev nD) : Vec F S3x4096 .bf16 :=
  VT.read (Elt F) (VT.writes (Elt F) VT.junk (runFirst c (grid0.coords tz) (ms0 tz) (hs0 tz) (ms1 tz) (hs1 tz) (ms2 tz) (hs2 tz) scT (Memref.isWhole_whole _) scN (Memref.isWhole_whole _) hcz (iblk m c 0 tz) (iblk m c 1 tz)).2.1)

/-- The squared norms, as the first point leaves them in scratch. -/
def scratchN (c : Dev nD) : Vec F S1x4096 .f32 :=
  VN.read (Elt F) (VN.writes (Elt F) VN.junk (runFirst c (grid0.coords tz) (ms0 tz) (hs0 tz) (ms1 tz) (hs1 tz) (ms2 tz) (hs2 tz) scT (Memref.isWhole_whole _) scN (Memref.isWhole_whole _) hcz (iblk m c 0 tz) (iblk m c 1 tz)).2.2.1)

/-- The result's staging block after point `t`. -/
def outAt (c : Dev nD) (t : Fin cfg0.N) : Vec F S512x4096 .f32 :=
  if h : t.val = 0 then
    VO.read (Elt F) (VO.writes (Elt F) VO.junk (runFirst c (grid0.coords t) (ms0 t) (hs0 t) (ms1 t) (hs1 t) (ms2 t) (hs2 t) scT (Memref.isWhole_whole _) scN (Memref.isWhole_whole _) ((hcond0 t).mpr h) (iblk m c 0 t) (iblk m c 1 t)).1)
  else
    VO.read (Elt F) (VO.writes (Elt F) VO.junk (runLater c (grid0.coords t) (ms0 t) (hs0 t) (ms1 t) (hs1 t) (ms2 t) (hs2 t) scT (Memref.isWhole_whole _) scN (Memref.isWhole_whole _) (fun hh => h ((hcond0 t).mp hh)) (iblk m c 0 t) (iblk m c 1 t) (scratchT m c) (scratchN m c)).1)

theorem outAt_first (c : Dev nD) (t : Fin cfg0.N) (h : t.val = 0) : outAt m c t =
    VO.read (Elt F) (VO.writes (Elt F) VO.junk (runFirst c (grid0.coords t) (ms0 t) (hs0 t) (ms1 t) (hs1 t) (ms2 t) (hs2 t) scT (Memref.isWhole_whole _) scN (Memref.isWhole_whole _) ((hcond0 t).mpr h) (iblk m c 0 t) (iblk m c 1 t)).1) := dif_pos h

theorem outAt_later (c : Dev nD) (t : Fin cfg0.N) (h : ¬t.val = 0) : outAt m c t =
    VO.read (Elt F) (VO.writes (Elt F) VO.junk (runLater c (grid0.coords t) (ms0 t) (hs0 t) (ms1 t) (hs1 t) (ms2 t) (hs2 t) scT (Memref.isWhole_whole _) scN (Memref.isWhole_whole _) (fun hh => h ((hcond0 t).mp hh)) (iblk m c 0 t) (iblk m c 1 t) (scratchT m c) (scratchN m c)).1) := dif_neg h

/-- The invariant between points: before the first point the scratch buffers hold anything; after it, what the first
    point stored. -/
def PhiS (c : Dev nD) (n : ℕ) : sProp 𝕄 :=
  if n = 0 then iprop((∃ d, owns (c : Thread nD τ) scT fullShare d) ∗ (∃ d, owns (c : Thread nD τ) scN fullShare d))
  else iprop(owns (c : Thread nD τ) scT fullShare (scratchT m c) ∗ owns (c : Thread nD τ) scN fullShare (scratchN m c))

theorem PhiS_zero (c : Dev nD) : PhiS m c 0 = iprop((∃ d, owns (c : Thread nD τ) scT fullShare d) ∗ (∃ d, owns (c : Thread nD τ) scN fullShare d)) := if_pos rfl
theorem PhiS_pos (c : Dev nD) (n : ℕ) (h : n ≠ 0) : PhiS m c n = iprop(owns (c : Thread nD τ) scT fullShare (scratchT m c) ∗ owns (c : Thread nD τ) scN fullShare (scratchN m c)) := if_neg h

/-! ## The proof data -/

/-- Per core: the arrays as the region finds them; what each window's staging buffer holds after the body (an input's:
    its block; the result's: the point's pieces); the invariant; the two input windows each at one half of the share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4000000 in
/-- The body at any point: the inputs' buffers hold their blocks; at the first point the scratch holds anything and
    ends at what the first point stores, at a later point it holds that and is only read. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) from rfl, PhiS_pos m c (t.val + 1) (Nat.succ_ne_zero _)]
  rw [show (dats m 0 c).Φ t.castSucc = PhiS m c t.val from rfl]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  by_cases hz : t.val = 0
  · obtain rfl : t = tz := Fin.ext hz
    rw [show (tz : Fin cfg0.N).val = 0 from rfl, PhiS_zero, outAt_first m c tz rfl]
    iintro ⟨⟨HT, HN⟩, Ho, ⟨%d0, H0⟩, ⟨%d1, H1⟩, ⟨%d2, H2⟩⟩
    iapply ((runFirst c (grid0.coords tz) (ms0 tz) (hs0 tz) (ms1 tz) (hs1 tz) (ms2 tz) (hs2 tz) scT (Memref.isWhole_whole _) scN (Memref.isWhole_whole _) hcz (iblk m c 0 tz) (iblk m c 1 tz)).2.2.2 Set.univ _)
    isplitl [H0]; · iexact H0
    isplitl [H1]; · iexact H1
    isplitl [H2]; · iexists _; iexact H2
    isplitl [HT]; · iexact HT
    isplitl [HN]; · iexact HN
    iintro ⟨H0, H1, ⟨%e2, H2⟩, ⟨%e3, H3⟩, ⟨%e4, H4⟩⟩
    isplitl [H3 H4]
    · isplitl [H3]
      · unfold owns; iexists _; isplitr
        swap; · iexact H3
        ipureintro; exact View.read_writes_of_cover _ _ _ _ _ (coverT c _ _ _ _ _ _ _ _ _ _ _ _ _ _)
      · unfold owns; iexists _; isplitr
        swap; · iexact H4
        ipureintro; exact View.read_writes_of_cover _ _ _ _ _ (coverN c _ _ _ _ _ _ _ _ _ _ _ _ _ _)
    isplitl [Ho]; · iexact Ho
    isplitl [H0]; · iexact H0
    isplitl [H1]; · iexact H1
    unfold owns; iexists _; isplitr
    swap; · iexact H2
    ipureintro; exact View.read_writes_of_cover _ _ _ _ _ (coverO_first c _ _ _ _ _ _ _ _ _ _ _ _ _ _)
  · rw [PhiS_pos m c t.val hz, outAt_later m c t hz]
    iintro ⟨⟨HT, HN⟩, Ho, ⟨%d0, H0⟩, ⟨%d1, H1⟩, ⟨%d2, H2⟩⟩
    iapply ((runLater c (grid0.coords t) (ms0 t) (hs0 t) (ms1 t) (hs1 t) (ms2 t) (hs2 t) scT (Memref.isWhole_whole _) scN (Memref.isWhole_whole _) (fun hh => hz ((hcond0 t).mp hh)) (iblk m c 0 t) (iblk m c 1 t) (scratchT m c) (scratchN m c)).2 Set.univ _)
    isplitl [H0]; · iexact H0
    isplitl [H1]; · iexact H1
    isplitl [H2]; · iexists _; iexact H2
    isplitl [HT]; · iexact HT
    isplitl [HN]; · iexact HN
    iintro ⟨H0, H1, ⟨%e2, H2⟩, HT, HN⟩
    isplitl [HT HN]
    · isplitl [HT]; · iexact HT
      iexact HN
    isplitl [Ho]; · iexact Ho
    isplitl [H0]; · iexact H0
    isplitl [H1]; · iexact H1
    unfold owns; iexists _; isplitr
    swap; · iexact H2
    ipureintro; exact View.read_writes_of_cover _ _ _ _ _ (coverO_later c _ _ _ _ _ _ _ _ _ _ _ _ _ _ _ _)

/-- The body obligation at every point. -/
theorem body_obligation (c : Dev nD) : BodyObligation (dats (F := F) m 0 c) (defs₀ (F := F)) Variants.none () Set.univ := fun t => by
  rw [bigSep_W0, bigSep_W0]
  exact sound_body m c t

/-! ## Entering and leaving the region -/

/-- The scratch buffers, each whole at some contents, are the invariant before the first point. -/
theorem hin (c : Dev nD) : iprop((BI.emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 from rfl, PhiS_zero, scopedRest0_eq]
  simp only [scT, scN, owns_whole]
  iintro ⟨-, H⟩; iexact H

/-- After the last point the invariant gives the scratch buffers back. -/
theorem hout (c : Dev nD) : (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val from rfl,
    PhiS_pos m c _ (by rw [Fin.val_last]; have : cfg0.N = 8 := N_0; omega), scopedRest0_eq]
  simp only [scT, scN, owns_whole]
  iintro ⟨HT, HN⟩
  isplitr; · iempintro
  isplitl [HT]
  · iexists _; iexact HT
  iexists _; iexact HN

end Cert.KernelIdeal.Body

end
-- ==== Proof.Ideal.OutBlock.lean ====
/-
  What the buffers hold, as payloads. The scratch buffers hold the first point's two payloads of the whole array of
  positions. The result's staging block after point t is read entry by entry: the block was stored whole, and then its
  512 x 512 square of columns [512 t, 512 t + 512) was stored again as the square just stored times the mask; so an
  entry in those columns holds the whole store's entry times the mask's, and an entry elsewhere the whole store's.
-/
import proofs.«143828_g38766374814086_cont_8to1_b_1182_20_alg».proof.Proof.Ideal.Frame
import Idealize.ShloMosaic.Lib.Pipeline.Value
import Idealize.ShloMosaic.Lib.WritesUnit
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem hz2 : (![0, 0] : Fin 2 → ℕ) = fun _ => 0 := by
  funext a; match a with | ⟨0, _⟩ => rfl | ⟨1, _⟩ => rfl

/-- The scaled transposed coordinates in scratch are that payload of the whole array. -/
theorem scratchT_eq (c : Dev nD) : scratchT (F := F) m c = k0_pay3 (iblk m c 1 tz) := by
  unfold scratchT
  rw [View.read_writes_junk_eq_canon]
  unfold runFirst; dsimp only; sl_unfold_words
  rw [View.canon_unit_zero hz2]
  simp only [View.readAt_eq_ld, Memref.IsWhole.read_unread, View.ld_unit_zero (S := S4096x3) hz2]

/-- The squared norms in scratch are that payload of the whole array. -/
theorem scratchN_eq (c : Dev nD) : scratchN (F := F) m c = k0_pay4 (iblk m c 1 tz) := by
  unfold scratchN
  rw [View.read_writes_junk_eq_canon]
  unfold runFirst; dsimp only; sl_unfold_words
  rw [View.canon_unit_zero hz2]
  simp only [View.readAt_eq_ld, Memref.IsWhole.read_unread, View.ld_unit_zero (S := S4096x3) hz2]

/-- A whole-block store followed by a store into the square of columns [512 n, 512 n + 512), read at (p, q). -/
theorem read_square_over_whole {sg : RefSig} {κ : Kind} {sp : Space} (v : View sg κ sp S512x4096 .f32) (f : v.ty.Contents (Elt F))
    {off : Fin 2 → ℕ} (n : ℕ) (heq : off = ![0, 512 * n]) (inb : ∀ a, off a + S512x512.size a ≤ S512x4096.size a)
    (inb0 : ∀ a, (![0, 0] : Fin 2 → ℕ) a + S512x4096.size a ≤ S512x4096.size a)
    (Q : (Rect.unit (s := S512x4096) off S512x512.size inb).shape.Idx → Elt F .f32) (W : S512x4096.Idx → Elt F .f32)
    (p : Fin 512) (q : Fin 4096) :
    v.read (Elt F) (v.writes (Elt F) f [(⟨Rect.unit (s := S512x4096) off S512x512.size inb, Q⟩ : View.Piece (Elt F) S512x4096 .f32),
        ⟨Rect.unit (s := S512x4096) ![0, 0] S512x4096.size inb0, W⟩]) (ix2 p q)
      = if h : 512 * n ≤ q.val ∧ q.val < 512 * n + 512 then Q (ix2 p ⟨q.val - 512 * n, by omega⟩) else W (ix2 p q) := by
  split
  · rename_i h
    refine View.read_writes_cons_unit_of_mem v f inb Q _ (ix2 p q) (ix2 p ⟨q.val - 512 * n, by omega⟩) heq fun a => ?_
    match a with
    | ⟨0, _⟩ => exact (Nat.zero_add _).symm
    | ⟨1, _⟩ => show q.val = 512 * n + (q.val - 512 * n); omega
  · rename_i h
    rw [View.read_writes_cons_unit_of_not_mem v f inb Q _ (ix2 p q) heq (1 : Fin 2) (by
      show q.val < 512 * n ∨ 512 * n + 512 ≤ q.val
      omega)]
    refine View.read_writes_cons_unit_of_mem v f inb0 W [] (ix2 p q) (ix2 p q) rfl fun a => ?_
    match a with
    | ⟨0, _⟩ => exact (Nat.zero_add _).symm
    | ⟨1, _⟩ => exact (Nat.zero_add _).symm

/-- The square of columns [512 n, 512 n + 512) loaded back from a block stored whole, at (p, q'). -/
theorem load_square_of_whole {sg : RefSig} {κ : Kind} {sp : Space} (v : View sg κ sp S512x4096 .f32) (f : v.ty.Contents (Elt F))
    {off : Fin 2 → ℕ} (n : ℕ) (heq : off = ![0, 512 * n]) (inb : ∀ a, off a + S512x512.size a ≤ S512x4096.size a)
    (inb0 : ∀ a, (![0, 0] : Fin 2 → ℕ) a + S512x4096.size a ≤ S512x4096.size a)
    (W : S512x4096.Idx → Elt F .f32) (p : Fin 512) (q' : Fin 512) (q : Fin 4096) (hq : q.val = 512 * n + q'.val) :
    View.readAt (Elt F) v (Rect.unit (s := S512x4096) off S512x512.size inb).toLoadRect
        (v.writes (Elt F) f [(⟨Rect.unit (s := S512x4096) ![0, 0] S512x4096.size inb0, W⟩ : View.Piece (Elt F) S512x4096 .f32)]) (ix2 p q')
      = W (ix2 p q) := by
  subst heq
  rw [View.readAt_apply]
  have hi : (Rect.unit (s := S512x4096) ![0, 512 * n] S512x512.size inb).toLoadRect.idx (ix2 p q') = ix2 p q := by
    funext a; apply Fin.ext
    match a with
    | ⟨0, _⟩ => show 0 + 1 * p.val = p.val; omega
    | ⟨1, _⟩ => show 512 * n + 1 * q'.val = q.val; omega
  rw [hi]
  refine View.read_writes_cons_unit_of_mem v f inb0 W [] (ix2 p q) (ix2 p q) rfl fun a => ?_
  match a with
  | ⟨0, _⟩ => exact (Nat.zero_add _).symm
  | ⟨1, _⟩ => exact (Nat.zero_add _).symm

/-- The grid's one coordinate at point t is t. -/
theorem coord_eq : ∀ t : Fin cfg0.N, (grid0.coords t 0).val = t.val :=
  (by decide +kernel : ∀ t : Fin grid0.N, (grid0.coords t 0).val = t.val)

/-- A later point's pieces for the result's block, written into any view of the block's shape and read at (p, q):
    inside the point's square of columns the whole store's entry times the mask's, elsewhere the whole store's. -/
theorem later_read (c : Dev nD) (i : grid0.Coords) (arg1 : Memref sig .tc .vmem S512x3 .f32) (harg1 : arg1.IsWhole) (arg2 : Memref sig .tc .vmem S4096x3 .f32) (harg2 : arg2.IsWhole) (arg3 : Memref sig .tc .vmem S512x4096 .f32) (harg3 : arg3.IsWhole) (arg4 : Memref sig .tc .vmem S3x4096 .bf16) (harg4 : arg4.IsWhole) (arg5 : Memref sig .tc .vmem S1x4096 .f32) (harg5 : arg5.IsWhole) (hc : ¬cond0 i)
    (x0 : Vec F S512x3 .f32) (x1 : Vec F S4096x3 .f32) (xT : Vec F S3x4096 .bf16) (xN : Vec F S1x4096 .f32)
    {sg : RefSig} {κ : Kind} {sp : Space} (v : View sg κ sp S512x4096 .f32) (f : v.ty.Contents (Elt F)) (p : Fin 512) (q : Fin 4096) :
    v.read (Elt F) (v.writes (Elt F) f (runLater c i arg1 harg1 arg2 harg2 arg3 harg3 arg4 harg4 arg5 harg5 hc x0 x1 xT xN).1) (ix2 p q)
      = if hq : 512 * (i 0).val ≤ q.val ∧ q.val < 512 * (i 0).val + 512 then
          FloatOps.mulf (k0_pay5 x0 xN xT (ix2 p q)) (k0_pay6 (F := F) (ix2 p ⟨q.val - 512 * (i 0).val, by omega⟩))
        else k0_pay5 x0 xN xT (ix2 p q) := by
  unfold runLater; dsimp only; sl_unfold_words
  simp only [View.readAt_eq_ld (v := arg1.view), View.readAt_eq_ld (v := arg4.view), View.readAt_eq_ld (v := arg5.view),
    harg1.read_unread, harg4.read_unread, harg5.read_unread, View.ld_unit_zero (S := S512x3) hz2, View.ld_unit_zero (S := S1x4096) hz2,
    View.ld_unit_zero (S := S3x4096) hz2]
  refine (read_square_over_whole v f (i 0).val (k0_off1_eq i) _ _ _ _ p q).trans ?_
  split
  · rename_i hq
    unfold k0_pay1
    rw [shapeCast_self]
    show FloatOps.mulf _ _ = FloatOps.mulf _ _
    congr 1
    exact load_square_of_whole _ _ (i 0).val (k0_off1_eq i) _ _ _ p ⟨q.val - 512 * (i 0).val, by omega⟩ q (by show q.val = 512 * (i 0).val + (q.val - 512 * (i 0).val); omega)
  · rfl

/-- The first point's pieces likewise; the whole store there reads the scratch rows it has just stored. -/
theorem first_read (c : Dev nD) (i : grid0.Coords) (arg1 : Memref sig .tc .vmem S512x3 .f32) (harg1 : arg1.IsWhole) (arg2 : Memref sig .tc .vmem S4096x3 .f32) (harg2 : arg2.IsWhole) (arg3 : Memref sig .tc .vmem S512x4096 .f32) (harg3 : arg3.IsWhole) (arg4 : Memref sig .tc .vmem S3x4096 .bf16) (harg4 : arg4.IsWhole) (arg5 : Memref sig .tc .vmem S1x4096 .f32) (harg5 : arg5.IsWhole) (hc : cond0 i)
    (x0 : Vec F S512x3 .f32) (x1 : Vec F S4096x3 .f32)
    {sg : RefSig} {κ : Kind} {sp : Space} (v : View sg κ sp S512x4096 .f32) (f : v.ty.Contents (Elt F)) (p : Fin 512) (q : Fin 4096) :
    v.read (Elt F) (v.writes (Elt F) f (runFirst c i arg1 harg1 arg2 harg2 arg3 harg3 arg4 harg4 arg5 harg5 hc x0 x1).1) (ix2 p q)
      = if hq : 512 * (i 0).val ≤ q.val ∧ q.val < 512 * (i 0).val + 512 then
          FloatOps.mulf (k0_pay5 x0 (k0_pay4 x1) (k0_pay3 x1) (ix2 p q)) (k0_pay6 (F := F) (ix2 p ⟨q.val - 512 * (i 0).val, by omega⟩))
        else k0_pay5 x0 (k0_pay4 x1) (k0_pay3 x1) (ix2 p q) := by
  unfold runFirst; dsimp only; sl_unfold_words
  simp only [View.readCov_unit_zero arg5.view hz2 inb_S1x4096_S1x4096_0_0, View.readCov_unit_zero arg4.view hz2 inb_S3x4096_S3x4096_0_0, View.readAt_eq_ld (v := arg1.view), View.readAt_eq_ld (v := arg2.view),
    harg1.read_unread, harg2.read_unread, View.ld_unit_zero (S := S512x3) hz2, View.ld_unit_zero (S := S4096x3) hz2]
  refine (read_square_over_whole v f (i 0).val (k0_off1_eq i) _ _ _ _ p q).trans ?_
  split
  · rename_i hq
    unfold k0_pay1
    rw [shapeCast_self]
    show FloatOps.mulf _ _ = FloatOps.mulf _ _
    congr 1
    exact load_square_of_whole _ _ (i 0).val (k0_off1_eq i) _ _ _ p ⟨q.val - 512 * (i 0).val, by omega⟩ q (by show q.val = 512 * (i 0).val + (q.val - 512 * (i 0).val); omega)
  · rfl

/-- What every point stores first into its block: the kept distances of its 512 rows against all 4096 columns, from
    the point's block of rows and the two scratch rows. -/
def wholeStore (c : Dev nD) (t : Fin cfg0.N) : Vec F S512x4096 .f32 :=
  k0_pay5 (iblk m c 0 t) (k0_pay4 (iblk m c 1 tz)) (k0_pay3 (iblk m c 1 tz))

/-- The result's staging block after point t, entry by entry. -/
theorem outAt_apply (c : Dev nD) (t : Fin cfg0.N) (p : Fin 512) (q : Fin 4096) :
    outAt (F := F) m c t (ix2 p q)
      = if hq : 512 * (grid0.coords t 0).val ≤ q.val ∧ q.val < 512 * (grid0.coords t 0).val + 512 then
          FloatOps.mulf (wholeStore m c t (ix2 p q)) (k0_pay6 (F := F) (ix2 p ⟨q.val - 512 * (grid0.coords t 0).val, by omega⟩))
        else wholeStore m c t (ix2 p q) := by
  by_cases h : t.val = 0
  · obtain rfl : t = tz := Fin.ext h
    rw [outAt_first m c tz rfl]
    exact first_read c _ _ _ _ _ _ _ _ _ _ _ _ _ _ VO VO.junk p q
  · rw [outAt_later m c t h, scratchT_eq, scratchN_eq]
    exact later_read c _ _ _ _ _ _ _ _ _ _ _ _ _ _ _ _ VO VO.junk p q

end Cert.KernelIdeal.Body

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Nbr.Spec.lean ====
/-
  The neighbour matrix as one function of the positions, in its two readings.
  For positions X (4096 rows of three coordinates) write s_i = x_i^2 + y_i^2 + z_i^2 and D_ij = s_i + s_j - 2 <X_i, X_j>, the squared
  distance. One reading keeps an entry when 0 < D < c and then takes D * D^(-1/2), and clears the diagonal; the other clamps D at 0
  from below, keeps an off-diagonal entry when the clamped value is below c, and takes its square root.
-/
import Idealize.ShloMosaic.Lib.ValueIdx
import Idealize.ShloMosaic.PureOps.Ideal.Laws

noncomputable section

namespace Cert.Nbr

open Idealize.ShloMosaic Idealize.ShloMosaic.ValueIdx

/-- The positions: 4096 rows of three coordinates. -/
abbrev Pos : Type := (⟨2, ![4096, 3]⟩ : Shape).Idx → EReal

/-! ## The first reading: keep, scale by the inverse root, clear the diagonal -/

/-- The squared norm of row i, its three squares added left to right. -/
def sqn (X : Pos) (i : Fin 4096) : EReal :=
  X (ix2 i 0) * X (ix2 i 0) + X (ix2 i 1) * X (ix2 i 1) + X (ix2 i 2) * X (ix2 i 2)

/-- The cross term -2 <X_i, X_j>, the factor inside the sum on the second operand. -/
def cross (X : Pos) (i j : Fin 4096) : EReal :=
  ∑ k : Fin 3, X (ix2 i k) * (X (ix2 j k) * Ideal.ofBits .f32 0xC0000000#32)

def dist2 (X : Pos) (i j : Fin 4096) : EReal := sqn X i + sqn X j + cross X i j

/-- An entry kept when 0 < d < c: d times its inverse root; else 0. -/
def keep (d : EReal) : EReal :=
  Scalar.select (IntOp.andi (Ideal.cmp .olt d (Ideal.ofBits .f32 0x3CB851EC#32)) (Ideal.cmp .ogt d (Ideal.ofBits .f32 0x00000000#32)))
    (d * Ideal.rsqrt d) (Ideal.ofBits .f32 0x00000000#32)

/-- The matrix: 0 on the diagonal, the kept value of the squared distance off it. -/
def nbr (X : Pos) : (⟨2, ![4096, 4096]⟩ : Shape).Idx → EReal := fun y =>
  if (y 0).val = (y 1).val then 0 else keep (dist2 X (y 0) (y 1))

/-! ## The second reading: clamp, mask off the diagonal, root -/

def sqnR (X : Pos) (i : Fin 4096) : EReal := Ideal.ofBits .f32 0x00000000#32 + ∑ k : Fin 3, X (ix2 i k) * X (ix2 i k)

def dotR (X : Pos) (i j : Fin 4096) : EReal := ∑ k : Fin 3, X (ix2 i k) * X (ix2 j k)

def dist2R (X : Pos) (i j : Fin 4096) : EReal :=
  max (sqnR X i + sqnR X j - Ideal.ofBits .f32 0x40000000#32 * dotR X i j) (Ideal.ofBits .f32 0x00000000#32)

def maskR (X : Pos) (i j : Fin 4096) : BitVec 1 :=
  IntOp.andi (Ideal.cmp .olt (dist2R X i j) (Ideal.ofBits .f32 0x3CB851EC#32))
    (~~~(IntOp.cmpi .eq (IntOp.addi (BitVec.ofNat 32 i.val) 0#32) (BitVec.ofNat 32 j.val)))

def refEntry (X : Pos) (i j : Fin 4096) : EReal :=
  Scalar.select (maskR X i j)
    (Ideal.sqrt (Scalar.select (maskR X i j) (dist2R X i j) (Ideal.ofBits .f32 0x3F800000#32)))
    (Ideal.ofBits .f32 0x00000000#32)

end Cert.Nbr

end
-- ==== Proof.Ideal.Payloads.lean ====
/-
  The body's arithmetic, entry by entry, on the extended reals. From the whole array X of positions: the scratch of scaled
  transposed coordinates holds X(j, k) * (-2) at (k, j), the scratch of squared norms the squared norm of row j at column j.
  From a block x of 512 rows and those two scratch rows, the whole store holds at (p, q) the kept value of
  (|x_p|^2 + N_q) + sum_k x(p, k) * T(k, q); and the mask holds 0 at (p, p) and 1 elsewhere.
-/
import proofs.«143828_g38766374814086_cont_8to1_b_1182_20_alg».proof.Proof.Gen.KernelIdeal.Skeleton
import proofs.«143828_g38766374814086_cont_8to1_b_1182_20_alg».proof.Proof.LibDot
import proofs.«143828_g38766374814086_cont_8to1_b_1182_20_alg».proof.Proof.LibColumn
import proofs.«143828_g38766374814086_cont_8to1_b_1182_20_alg».proof.Proof.Nbr.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Pay

open Cert.KernelIdeal Cert.KernelIdeal.Gen
open Idealize.ShloMosaic Idealize.ShloMosaic.ValueIdx

/-- The transposed coordinates at (k, j) are the positions at (j, k). -/
theorem pay2_apply (X : Vec Ideal S4096x3 .f32) (k : Fin 3) (j : Fin 4096) :
    k0_pay2 (F := Ideal) X (ix2 k j) = X (ix2 j k) := by
  unfold k0_pay2
  exact transpose_ix2_apply X transposes_S4096x3_p1_0_S3x4096 k j

/-- The scaled transposed coordinates. -/
theorem pay3_apply (X : Vec Ideal S4096x3 .f32) (k : Fin 3) (j : Fin 4096) :
    k0_pay3 (F := Ideal) X (ix2 k j) = X (ix2 j k) * Ideal.ofBits .f32 0xC0000000#32 := by
  unfold k0_pay3
  rw [shapeCast_self]
  show k0_pay2 (F := Ideal) X (ix2 k j) * Ideal.ofBits .f32 0xC0000000#32 = _
  rw [pay2_apply]

/-- The squared norms, row by row. -/
theorem pay4_apply (X : Vec Ideal S4096x3 .f32) (u : Fin 1) (j : Fin 4096) :
    k0_pay4 (F := Ideal) X (ix2 u j) = Cert.Nbr.sqn X j := by
  unfold k0_pay4
  rw [shapeCast_self]
  show extractStridedSlice S1x4096 ![0, 0] (k0_pay2 (F := Ideal) X) slices_S3x4096_o0_0_S1x4096 (ix2 u j)
        * extractStridedSlice S1x4096 ![0, 0] (k0_pay2 (F := Ideal) X) slices_S3x4096_o0_0_S1x4096 (ix2 u j)
      + extractStridedSlice S1x4096 ![1, 0] (k0_pay2 (F := Ideal) X) slices_S3x4096_o1_0_S1x4096 (ix2 u j)
        * extractStridedSlice S1x4096 ![1, 0] (k0_pay2 (F := Ideal) X) slices_S3x4096_o1_0_S1x4096 (ix2 u j)
      + extractStridedSlice S1x4096 ![2, 0] (k0_pay2 (F := Ideal) X) slices_S3x4096_o2_0_S1x4096 (ix2 u j)
        * extractStridedSlice S1x4096 ![2, 0] (k0_pay2 (F := Ideal) X) slices_S3x4096_o2_0_S1x4096 (ix2 u j) = _
  have hu : u.val = 0 := by omega
  rw [slice2_axis0_apply 0 (k0_pay2 (F := Ideal) X) slices_S3x4096_o0_0_S1x4096 u j (0 : Fin 3) (by rw [hu]; rfl),
    slice2_axis0_apply 1 (k0_pay2 (F := Ideal) X) slices_S3x4096_o1_0_S1x4096 u j (1 : Fin 3) (by rw [hu]; rfl),
    slice2_axis0_apply 2 (k0_pay2 (F := Ideal) X) slices_S3x4096_o2_0_S1x4096 u j (2 : Fin 3) (by rw [hu]; rfl),
    pay2_apply, pay2_apply, pay2_apply]
  rfl

/-- The matrix unit's record is a plain rows-by-columns product. -/
theorem plain_dot : Cert.LibDot.Plain dot_S512x3_S3x4096_S512x4096_1_0_0_1_n_n where
  hrank := rfl
  hs := rfl
  hl0 := fun _ _ => rfl
  hl1 := fun _ _ => rfl
  hr0 := fun _ _ => rfl
  hr1 := fun _ _ => rfl

/-- The whole store at (p, q). -/
theorem pay5_apply (x : Vec Ideal S512x3 .f32) (N : Vec Ideal S1x4096 .f32) (T : Vec Ideal S3x4096 .bf16) (p : Fin 512) (q : Fin 4096) :
    k0_pay5 (F := Ideal) x N T (ix2 p q)
      = Cert.Nbr.keep ((x (ix2 p 0) * x (ix2 p 0) + x (ix2 p 1) * x (ix2 p 1) + x (ix2 p 2) * x (ix2 p 2) + N (ix2 0 q))
          + ∑ k : Fin 3, x (ix2 p k) * T (ix2 k q)) := by
  unfold k0_pay5
  show Cert.Nbr.keep (broadcastTo S512x4096 _ broadcasts_S512x1_S512x4096 (ix2 p q)
      + broadcastTo S512x4096 N broadcasts_S1x4096_S512x4096 (ix2 p q)
      + matmul (F := Ideal) dot_S512x3_S3x4096_S512x4096_1_0_0_1_n_n none (truncf .bf16 x bitsLt_bf16_f32) T (constant S512x4096 .f32 0x00000000#32) (ix2 p q)) = _
  rw [broadcastTo_a1_ab_apply, broadcastTo_1b_ab_apply, Cert.LibDot.matmul_ix2 plain_dot]
  show Cert.Nbr.keep (extractStridedSlice S512x1 ![0, 0] x slices_S512x3_o0_0_S512x1 (ix2 p 0) * extractStridedSlice S512x1 ![0, 0] x slices_S512x3_o0_0_S512x1 (ix2 p 0)
        + extractStridedSlice S512x1 ![0, 1] x slices_S512x3_o0_1_S512x1 (ix2 p 0) * extractStridedSlice S512x1 ![0, 1] x slices_S512x3_o0_1_S512x1 (ix2 p 0)
        + extractStridedSlice S512x1 ![0, 2] x slices_S512x3_o0_2_S512x1 (ix2 p 0) * extractStridedSlice S512x1 ![0, 2] x slices_S512x3_o0_2_S512x1 (ix2 p 0)
        + N (ix2 0 q) + ∑ k : Fin 3, x (ix2 p k) * T (ix2 k q)) = _
  rw [slice2_axis1_apply 0 x slices_S512x3_o0_0_S512x1 p (0 : Fin 1) (0 : Fin 3) rfl,
    slice2_axis1_apply 1 x slices_S512x3_o0_1_S512x1 p (0 : Fin 1) (1 : Fin 3) rfl,
    slice2_axis1_apply 2 x slices_S512x3_o0_2_S512x1 p (0 : Fin 1) (2 : Fin 3) rfl]

/-- The mask at (p, q): 0 on the diagonal, 1 off it. -/
theorem pay6_apply (p q : Fin 512) :
    k0_pay6 (F := Ideal) (ix2 p q) = if p.val = q.val then Ideal.ofBits .f32 0x00000000#32 else Ideal.ofBits .f32 0x3F800000#32 := by
  unfold k0_pay6
  show Scalar.select (IntOp.cmpi .eq (iota .tc S512x512 32 [0] iota_S512x512_d0_w32 (ix2 p q)) (iota .tc S512x512 32 [1] iota_S512x512_d1_w32 (ix2 p q)))
    (Ideal.ofBits .f32 0x00000000#32) (Ideal.ofBits .f32 0x3F800000#32) = _
  rw [iota_single_apply, iota_single_apply]
  show Scalar.select (IntOp.cmpi .eq (BitVec.ofNat 32 p.val) (BitVec.ofNat 32 q.val)) _ _ = _
  have hp := p.isLt; have hq := q.isLt
  by_cases h : p.val = q.val
  · rw [if_pos h, h]
    have : IntOp.cmpi .eq (BitVec.ofNat 32 q.val) (BitVec.ofNat 32 q.val) = 1#1 := by simp [IntOp.cmpi]
    rw [this, select_one]
  · rw [if_neg h]
    have : IntOp.cmpi .eq (BitVec.ofNat 32 p.val) (BitVec.ofNat 32 q.val) = 0#1 := by
      apply eq_zero_of_ne_one
      intro h1
      apply h
      simp only [IntOp.cmpi] at h1
      have h' : (BitVec.ofNat 32 p.val == BitVec.ofNat 32 q.val) = true := by
        by_contra hne
        rw [Bool.not_eq_true] at hne
        rw [hne] at h1
        exact absurd h1 (by decide)
      have := congrArg BitVec.toNat (beq_iff_eq.mp h')
      simp only [BitVec.toNat_ofNat] at this
      omega
    rw [this, select_zero]

end Cert.KernelIdeal.Pay

end
-- ==== Proof.Ideal.Region.lean ====
/-
  The region launched. The positions' buffer, held whole at the full share when the region is entered, is split into
  its two half shares, one for each of the two windows that read it; the result's buffer is held outright. Every
  weakly fair execution then terminates, and each window's array ends at what the write-backs of the eight points
  leave: the positions unchanged (an input is never written), the result at the blocks the points flushed.
-/
import proofs.«143828_g38766374814086_cont_8to1_b_1182_20_alg».proof.Proof.Ideal.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays — the positions and the result, each whole at the full share — are the
    windows' arrays at their shares: the positions' full share is its left half and its right half. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  classical
  have hform : (dats m 0 c).arrays ((dats m 0 c).arrAt · 0)
      = bigSep Finset.univ fun w => (((c.tc : Thread nD τ).loc (Pipeline.arrRef spec0 w)) ↦{(dats m 0 c).share w} (dats m 0 c).arrAt w 0 : sProp 𝕄) := by
    unfold Dat.arrays
    exact bigSep_congr fun w _ => by rw [(arr_whole0 w).set_eq_univ]
  rw [hform]
  unfold Pipeline.arrBufs
  rw [bigSep_W0, bigSep_eq_bigSepL_of_eq [main_arg0, main_v0] (by decide) (by decide)]
  show iprop((((c.tc : Thread nD τ).loc main_arg0) ↦{fullShare} V m c main_arg0) ∗ (((c.tc : Thread nD τ).loc main_v0) ↦{fullShare} V m c main_v0))
    ⊢ iprop((((c.tc : Thread nD τ).loc main_arg0) ↦{fullShare.left} V m c main_arg0)
        ∗ (((c.tc : Thread nD τ).loc main_arg0) ↦{fullShare.right} V m c main_arg0)
        ∗ (((c.tc : Thread nD τ).loc main_v0) ↦{fullShare} V m c main_v0))
  iintro ⟨Ha, Hv⟩
  ihave Ha' := (pointsTo_share (PosShare.mem_left_op_right fullShare)).1 $$ Ha
  icases Ha' with ⟨Hl, Hr⟩
  isplitl [Hl]; · iexact Hl
  isplitl [Hr]; · iexact Hr
  iexact Hv

set_option backward.isDefEq.respectTransparency.types false in
/-- Every weakly fair execution of the program terminates, and each window's array ends at what the points' write-backs
    leave of it. -/
theorem run_main : θ_run defs (onTc (τ := τ) (main (F := F))) ⟨m, fun _ => 0, ρ⟩
    (fun r => ∀ c : Dev nD, ∀ w : Fin cfg0.W, r.2.mem ((cfg0.win w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp)) (Z := fun _ => iprop(emp))
    (hX := fun c => by rw [unscopedRest0_eq]; iintro -; isplitl <;> iempintro)
    (hin := hin m) (hout := hout m)
    (QY := fun _ _ => True)
    (hY := fun c s' => by
      iintro ⟨-, -, HSI⟩; imodintro
      isplitr; · ipureintro; trivial
      iexact HSI)
    (hQ := fun s h c w => (h c).1 w)

/-- The program runs to the end, faults nowhere, and the positions end as they began: an input window's array is never
    written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c 0).trans (((dats m 0 c).arrAt_in 0 rfl _).trans ((A_eq m c 0).trans (V_main_arg0 m c)))) (run_main m ρ)

end Cert.KernelIdeal.Body

end
-- ==== Proof.Nbr.Lits.lean ====
/-
  The float literals of the two programs, as the extended reals their patterns denote: 0, 1, 2, -2, and the squared
  cutoff 12079596 * 2^(-29) (the single-precision value nearest 0.0225), a positive real.
-/
import Mathlib
import Idealize.ShloMosaic.PureOps.Ideal

noncomputable section

namespace Cert.Nbr

open Idealize.ShloMosaic

theorem lit_zero : Ideal.ofBits .f32 0x00000000#32 = ((0 : ℝ) : EReal) := by
  simp [Ideal.ofBits, Ideal.ieee]

theorem lit_one : Ideal.ofBits .f32 0x3F800000#32 = ((1 : ℝ) : EReal) := by
  simp [Ideal.ofBits, Ideal.ieee, -EReal.coe_mul] <;> norm_num

theorem lit_two : Ideal.ofBits .f32 0x40000000#32 = ((2 : ℝ) : EReal) := by
  simp [Ideal.ofBits, Ideal.ieee, -EReal.coe_mul] <;> norm_num

theorem lit_negTwo : Ideal.ofBits .f32 0xC0000000#32 = ((-2 : ℝ) : EReal) := by
  simp [Ideal.ofBits, Ideal.ieee, -EReal.coe_mul] <;> norm_num

/-- The squared cutoff is a positive real. -/
theorem lit_cut : ∃ c : ℝ, 0 < c ∧ Ideal.ofBits .f32 0x3CB851EC#32 = ((c : ℝ) : EReal) := by
  refine ⟨(12079596 : ℝ) * (2 : ℝ) ^ (-29 : ℤ), by positivity, ?_⟩
  simp [Ideal.ofBits, Ideal.ieee, -EReal.coe_mul] <;> norm_num

end Cert.Nbr

end
-- ==== Proof.Ideal.Final.lean ====
/-
  From blocks to the array. Point t's block of rows is rows [512 t, 512 t + 512) of the positions, and the whole-array window's
  block is the positions themselves; so the whole store at (p, q) is the kept value of the squared distance between rows
  512 t + p and q, and the second store multiplies the entries of columns [512 t, 512 t + 512) by 0 on the diagonal and by 1 off
  it. What point t writes back is therefore block t of the neighbour matrix; the eight blocks tile the 4096 rows, so the
  result ends as the neighbour matrix of the positions.
-/
import proofs.«143828_g38766374814086_cont_8to1_b_1182_20_alg».proof.Proof.Ideal.OutBlock
import proofs.«143828_g38766374814086_cont_8to1_b_1182_20_alg».proof.Proof.Ideal.Payloads
import proofs.«143828_g38766374814086_cont_8to1_b_1182_20_alg».proof.Proof.Ideal.Region
import proofs.«143828_g38766374814086_cont_8to1_b_1182_20_alg».proof.Proof.Nbr.Lits

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-- The windows' block indices at each point: the row-block window and the result's window are at block t of the rows,
    column block 0; the whole-array window is at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The positions as the region finds them. -/
abbrev posOf (c : Dev nD) : Cert.Nbr.Pos := V m c main_arg0

/-- Point t's block of rows, at (p, k), is the positions at row 512 t + p. -/
theorem iblk0_apply (c : Dev nD) (t : Fin cfg0.N) (p : Fin 512) (k : Fin 3) (r : Fin 4096) (hr : r.val = 512 * t.val + p.val) :
    iblk m c 0 t (ix2 p k) = posOf m c (ix2 r k) := by
  unfold iblk
  show V m c main_arg0 (((cfg0.win 0).blk t).view.emb (ix2 p k)) = _
  obtain ⟨e0, e1, -⟩ := idx_facts t
  refine congrArg (V m c main_arg0) (funext fun a => Fin.ext ?_)
  match a with
  | ⟨0, _⟩ => show win0_0.index t (0 : Fin 2) * 512 + 1 * p.val = r.val; omega
  | ⟨1, _⟩ => show win0_0.index t (1 : Fin 2) * 3 + 1 * k.val = k.val; omega

/-- The whole-array window's block is the positions. -/
theorem iblk1_eq (c : Dev nD) (t : Fin cfg0.N) : iblk m c 1 t = posOf m c := by
  unfold iblk
  funext y
  show V m c main_arg0 (((cfg0.win 1).blk t).view.emb y) = _
  obtain ⟨-, -, e2, e3, -⟩ := idx_facts t
  refine congrArg (V m c main_arg0) (funext fun a => Fin.ext ?_)
  match a with
  | ⟨0, _⟩ => show win0_1.index t (0 : Fin 2) * 4096 + 1 * (y 0).val = (y 0).val; omega
  | ⟨1, _⟩ => show win0_1.index t (1 : Fin 2) * 3 + 1 * (y 1).val = (y 1).val; omega

/-- The whole store at (p, q) is the kept squared distance between rows 512 t + p and q. -/
theorem wholeStore_apply (c : Dev nD) (t : Fin cfg0.N) (p : Fin 512) (q : Fin 4096) (r : Fin 4096) (hr : r.val = 512 * t.val + p.val) :
    wholeStore m c t (ix2 p q) = Cert.Nbr.keep (Cert.Nbr.dist2 (posOf m c) r q) := by
  unfold wholeStore
  rw [Pay.pay5_apply, iblk1_eq, Pay.pay4_apply, iblk0_apply m c t p 0 r hr, iblk0_apply m c t p 1 r hr, iblk0_apply m c t p 2 r hr]
  refine congrArg Cert.Nbr.keep ?_
  unfold Cert.Nbr.dist2 Cert.Nbr.cross
  refine congrArg₂ (· + ·) rfl (Finset.sum_congr rfl fun k _ => ?_)
  rw [iblk0_apply m c t p k r hr, Pay.pay3_apply]

/-- WHAT POINT t WRITES BACK is block t of the neighbour matrix of the positions. -/
theorem flushed_eq (c : Dev nD) (t : Fin cfg0.N) :
    (dats m 0 c).flushed 2 t = ((cfg0.win 2).blk t).view.read (Elt Ideal) (Cert.Nbr.nbr (posOf m c)) := by
  show (cfg0.win 2).cut (grid0.coords t) ((dats m 0 c).after 2 t) = _
  rw [after2]
  funext y
  obtain ⟨p, q, rfl⟩ : ∃ (p : Fin 512) (q : Fin 4096), y = ix2 p q := ⟨y 0, y 1, eq_ix2 y⟩
  have hN : t.val < 8 := lt_of_lt_of_eq t.isLt (show cfg0.N = 8 from N_0)
  have hp := p.isLt
  have hq := q.isLt
  let r : Fin 4096 := ⟨512 * t.val + p.val, by omega⟩
  have hr : r.val = 512 * t.val + p.val := rfl
  obtain ⟨-, -, -, -, e4, e5⟩ := idx_facts t
  have hemb : ((cfg0.win 2).blk t).view.emb (ix2 p q) = ix2 r q := by
    funext a; apply Fin.ext
    match a with
    | ⟨0, _⟩ => show win0_2.index t (0 : Fin 2) * 512 + 1 * p.val = 512 * t.val + p.val; omega
    | ⟨1, _⟩ => show win0_2.index t (1 : Fin 2) * 4096 + 1 * q.val = q.val; omega
  show outAt m c t (ix2 p q) = Cert.Nbr.nbr (posOf m c) (((cfg0.win 2).blk t).view.emb (ix2 p q))
  rw [hemb, outAt_apply]
  have hnbr : Cert.Nbr.nbr (posOf m c) (ix2 r q) = if r.val = q.val then (0 : EReal) else Cert.Nbr.keep (Cert.Nbr.dist2 (posOf m c) r q) := rfl
  rw [hnbr]
  simp only [coord_eq t]
  split
  · rename_i hsq
    rw [wholeStore_apply m c t p q r hr, Pay.pay6_apply]
    show Cert.Nbr.keep _ * _ = _
    by_cases hd : p.val = q.val - 512 * t.val
    · rw [if_pos hd, if_pos (by show 512 * t.val + p.val = q.val; omega), Cert.Nbr.lit_zero, EReal.coe_zero, mul_zero]
    · rw [if_neg hd, if_neg (by show ¬(512 * t.val + p.val = q.val); omega), Cert.Nbr.lit_one, EReal.coe_one, mul_one]
  · rename_i hsq
    rw [wholeStore_apply m c t p q r hr, if_neg (by show ¬(512 * t.val + p.val = q.val); omega)]

/-- An index of the result is in point t's block iff each coordinate is in the block's range on its axis. -/
theorem mem_blk (t : Fin cfg0.N) (i : S4096x4096.Idx) :
    i ∈ ((cfg0.win 2).blk t).view.set ↔ ∀ a : Fin 2, win0_2.index t a * S512x4096.size a ≤ (i a).val ∧ (i a).val < win0_2.index t a * S512x4096.size a + S512x4096.size a := by
  show i ∈ ((View.whole main_v0).slice (win0_2.rect t)).set ↔ _
  rw [View.set_slice_whole, Rect.mem_set_unit]
  exact Iff.rfl

/-- Every index of the result is in the block of the point its row falls in. -/
theorem cover (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  let t : Fin cfg0.N := ⟨(i 0).val / 512, by rw [show cfg0.N = 8 from N_0]; omega⟩
  have ht : t.val = (i 0).val / 512 := rfl
  obtain ⟨-, -, -, -, e4, e5⟩ := idx_facts t
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 4096 ≤ (i 1).val ∧ (i 1).val < win0_2.index t (1 : Fin 2) * 4096 + 4096; omega

/-- THE RESULT after the run: the neighbour matrix of the positions. -/
theorem final (c : Dev nD) : (dats m 0 c).arrAt 2 cfg0.N = Cert.Nbr.nbr (posOf m c) :=
  (dats m 0 c).arrAt_eq_of_cover 2 (Cert.Nbr.nbr (posOf m c)) (fun t _ => flushed_eq m c t) cover

/-- The run re-posted: the result at the neighbour matrix of the positions, the positions unchanged. -/
theorem run : θ_run defs (onTc (τ := τ) (main (F := Ideal))) ⟨m, fun _ => 0, ρ⟩ fun r => ∀ c : Dev nD,
      r.2.mem ((c.tc : Thread nD τ).loc main_v0) = Cert.Nbr.nbr (m ((c.tc : Thread nD τ).loc main_arg0))
      ∧ r.2.mem ((c.tc : Thread nD τ).loc main_arg0) = m ((c.tc : Thread nD τ).loc main_arg0) :=
  (θ_run defs _ _).mono (fun _ h c => ⟨(h c 2).trans (final m c),
      (h c 0).trans (((dats m 0 c).arrAt_in 0 rfl _).trans ((A_eq m c 0).trans (V_main_arg0 m c)))⟩)
    (run_main m ρ)

end Cert.KernelIdeal.Body

end
-- ==== Proof.Ref.Entry.lean ====
/-
  The reference, entry by entry. Its result at (i, j) is built from the row sums of squares of rows i and j (each the zero
  word plus the three squares), the dot product of the two rows (the second operand transposed), their combination
  s_i + s_j - 2 * dot clamped at 0 from below, the mask "below the cutoff and off the diagonal" (the diagonal found by
  comparing the row and column indices as 32-bit words), the square root of the masked value (1 where masked out), and 0
  where masked out: the second reading of the neighbour matrix.
-/
import proofs.«143828_g38766374814086_cont_8to1_b_1182_20_alg».proof.Proof.Gen.ReferenceIdeal.Read
import proofs.«143828_g38766374814086_cont_8to1_b_1182_20_alg».proof.Proof.Nbr.Spec
import Idealize.ShloMosaic.Lib.ValueIdx

set_option maxRecDepth 16384

noncomputable section

namespace Cert.ReferenceIdeal.Entry

open Cert.ReferenceIdeal Cert.ReferenceIdeal.Gen Cert.ReferenceIdeal.Read
open Idealize.ShloMosaic Idealize.ShloMosaic.ValueIdx Idealize.ShloMosaic.StableHlo

/-- The reference's result at (i, j). -/
theorem ref_apply (X : (⟨S4096x3, .f32⟩ : BufTy).Contents (Elt Ideal)) (i j : Fin 4096) :
    val_main_v25 (F := Ideal) X (ix2 i j) = Cert.Nbr.refEntry X i j := by
  have e4 : idx_main_v4 (ix2 i j) = ix2 i (0 : Fin 1) :=
    funext fun a => Fin.ext (by match a with | ⟨0, _⟩ => rfl | ⟨1, _⟩ => rfl)
  have e2 : idx_main_v2 (ix2 i (0 : Fin 1)) = ix1 i :=
    funext fun a => Fin.ext (by match a with | ⟨0, _⟩ => rfl)
  have e5 : idx_main_v5 (ix2 i j) = ix2 (0 : Fin 1) j :=
    funext fun a => Fin.ext (by match a with | ⟨0, _⟩ => rfl | ⟨1, _⟩ => rfl)
  have e3 : idx_main_v3 (ix2 (0 : Fin 1) j) = ix1 j :=
    funext fun a => Fin.ext (by match a with | ⟨0, _⟩ => rfl)
  have e1 : ∀ (r : Fin 4096) (k : Fin 3), idx_main_v1 (ix1 r) k = ix2 r k := fun r k =>
    funext fun a => Fin.ext (by match a with | ⟨0, _⟩ => rfl | ⟨1, _⟩ => rfl)
  have el : ∀ k : Fin 3, lidx_main_v8 (ix2 i j) k = ix2 i k := fun k =>
    funext fun a => Fin.ext (by match a with | ⟨0, _⟩ => rfl | ⟨1, _⟩ => rfl)
  have er : ∀ k : Fin 3, ridx_main_v8 (ix2 i j) k = ix2 k j := fun k =>
    funext fun a => Fin.ext (by match a with | ⟨0, _⟩ => rfl | ⟨1, _⟩ => rfl)
  have e7 : ∀ k : Fin 3, idx_main_v7 (ix2 k j) = ix2 j k := fun k =>
    funext fun a => Fin.ext (by match a with | ⟨0, _⟩ => rfl | ⟨1, _⟩ => rfl)
  have hsq : ∀ r : Fin 4096, val_main_v1 (F := Ideal) X (ix1 r) = Cert.Nbr.sqnR X r := fun r => by
    rw [val_main_v1_apply, val_main_cst_apply]
    simp only [e1, val_main_v0_apply]
    rfl
  have hdot : val_main_v8 (F := Ideal) X (ix2 i j) = Cert.Nbr.dotR X i j := by
    rw [val_main_v8_apply]
    simp only [el, er, val_main_v7_apply, e7]
    rfl
  have hd : val_main_v13 (F := Ideal) X (ix2 i j) = Cert.Nbr.dist2R X i j := by
    rw [val_main_v13_apply, val_main_v11_apply, val_main_v6_apply, val_main_v4_apply, e4, val_main_v2_apply, e2, hsq,
      val_main_v5_apply, e5, val_main_v3_apply, e3, hsq, val_main_v10_apply, val_main_v9_apply, val_main_cst_0_apply, hdot,
      val_main_v12_apply, val_main_cst_1_apply]
    rfl
  have hm : val_main_v22 (F := Ideal) X (ix2 i j) = Cert.Nbr.maskR X i j := by
    rw [val_main_v22_apply, val_main_v20_apply, hd, val_main_v19_apply, val_main_cst_2_apply, val_main_v21_apply,
      val_main_v18_apply, val_main_v17_apply, val_main_v14_apply, val_main_v16_apply, val_main_c_apply, val_main_v15_apply]
    rfl
  rw [val_main_v25_apply, hm, val_main_v24_apply, val_main_v23_apply, hm, hd, val_main_call0_v1_apply, val_main_call0_v0_apply,
    val_main_cst_3_apply, val_main_call1_v1_apply, val_main_call1_v0_apply, val_main_cst_4_apply]
  rfl

end Cert.ReferenceIdeal.Entry

end
-- ==== Proof.LibRealMask.lean ====
/-
  Masks as Booleans, and comparisons and roots of real numbers, on the extended reals.
  A one-bit mask built from comparisons is the bit of a Boolean: "and" of two such bits is the bit of the conjunction, "not" the bit
  of the negation, and a select on such a bit is an if on the Boolean. A comparison of two real numbers read on the extended reals is
  the bit of the real comparison. The square root of a non-negative real is its real square root; the inverse square root of a
  positive real is the inverse of its real square root, so a positive real times its inverse square root is its square root.
  Two natural numbers below 2^32, as 32-bit words, are equal exactly when the numbers are.
-/
import Mathlib
import Idealize.ShloMosaic.Lib.ValueIdx
import Idealize.ShloMosaic.PureOps.Ideal.Laws

noncomputable section

namespace Cert.LibRealMask

open Idealize.ShloMosaic

/-- A select on the bit of a Boolean is an if on the Boolean. -/
theorem sel_bool {α : Type} (a : Bool) (u v : α) : Scalar.select (BitVec.ofBool a) u v = if a = true then u else v := by
  cases a <;> rfl

/-- The "and" of two Booleans' bits is the bit of their conjunction. -/
theorem and_bool (a b : Bool) : IntOp.andi (BitVec.ofBool a) (BitVec.ofBool b) = BitVec.ofBool (a && b) := by
  cases a <;> cases b <;> rfl

/-- The complement of a Boolean's bit is the bit of its negation. -/
theorem not_bool (a : Bool) : ~~~(BitVec.ofBool a) = BitVec.ofBool (!a) := by cases a <;> rfl

/-- "Less than" between two reals, read on the extended reals. -/
theorem cmp_olt_coe (a b : ℝ) : Ideal.cmp .olt (a : EReal) (b : EReal) = BitVec.ofBool (decide (a < b)) := by
  simp only [Ideal.cmp, EReal.coe_lt_coe_iff]

/-- "Greater than" between two reals, read on the extended reals. -/
theorem cmp_ogt_coe (a b : ℝ) : Ideal.cmp .ogt (a : EReal) (b : EReal) = BitVec.ofBool (decide (b < a)) := by
  simp only [Ideal.cmp, EReal.coe_lt_coe_iff]

/-- The square root of a non-negative real. -/
theorem sqrt_coe (r : ℝ) (h : 0 ≤ r) : Ideal.sqrt (r : EReal) = ((Real.sqrt r : ℝ) : EReal) := by
  show (if r < 0 then (⊥ : EReal) else (Real.sqrt r : EReal)) = _
  rw [if_neg (not_lt.mpr h)]

/-- The inverse square root of a positive real. -/
theorem rsqrt_coe (r : ℝ) (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg h.ne']

/-- A positive real times its inverse square root is its square root. -/
theorem mul_rsqrt_coe (r : ℝ) (h : 0 < r) : ((r : ℝ) : EReal) * Ideal.rsqrt (r : EReal) = ((Real.sqrt r : ℝ) : EReal) := by
  rw [rsqrt_coe r h, ← EReal.coe_mul]
  congr 1
  have hpos : 0 < Real.sqrt r := Real.sqrt_pos.mpr h
  rw [mul_inv_eq_iff_eq_mul₀ hpos.ne']
  exact (Real.mul_self_sqrt h.le).symm

/-- Two naturals below 2^32, as 32-bit words, are equal exactly when the numbers are. -/
theorem word_eq_of_lt (i j : ℕ) (hi : i < 2 ^ 32) (hj : j < 2 ^ 32) :
    IntOp.cmpi .eq (BitVec.ofNat 32 i) (BitVec.ofNat 32 j) = BitVec.ofBool (decide (i = j)) := by
  simp only [IntOp.cmpi]
  congr 1
  rw [Bool.eq_iff_iff, beq_iff_eq, decide_eq_true_iff]
  constructor
  · intro h
    have := congrArg BitVec.toNat h
    simp only [BitVec.toNat_ofNat] at this
    omega
  · intro h; rw [h]

end Cert.LibRealMask

end
-- ==== Proof.Nbr.Agree.lean ====
/-
  The two readings of the neighbour matrix agree on finite positions. On finite positions the squared distance D is a real
  number and the cutoff c a positive real. The first reading is sqrt D when 0 < D < c (for D * D^(-1/2) is the square root
  of a positive D) and 0 otherwise, and 0 on the diagonal. The second is, off the diagonal, sqrt (max D 0) when max D 0 < c and 0
  otherwise: for D <= 0 that is sqrt 0 = 0, for 0 < D the same condition and value, and at or above c both are 0 because c is
  positive. Finiteness is used: moving the factor -2 out of the sum, and reading a difference as a sum with the opposite, hold
  for reals and fail at the infinities.
-/
import Mathlib
import proofs.«143828_g38766374814086_cont_8to1_b_1182_20_alg».proof.Proof.Nbr.Spec
import proofs.«143828_g38766374814086_cont_8to1_b_1182_20_alg».proof.Proof.Nbr.Lits
import proofs.«143828_g38766374814086_cont_8to1_b_1182_20_alg».proof.Proof.LibRealMask

noncomputable section

namespace Cert.Nbr

open Idealize.ShloMosaic Idealize.ShloMosaic.ValueIdx Cert.LibRealMask

/-- Row indices as 32-bit words are equal exactly when the rows are. -/
theorem word_eq (i j : Fin 4096) :
    IntOp.cmpi .eq (IntOp.addi (BitVec.ofNat 32 i.val) 0#32) (BitVec.ofNat 32 j.val) = BitVec.ofBool (decide (i.val = j.val)) := by
  have hi := i.isLt; have hj := j.isLt
  simp only [IntOp.addi, BitVec.add_zero]
  exact word_eq_of_lt i.val j.val (by omega) (by omega)

/-- The first reading's kept value at a real squared distance. -/
theorem keep_coe (D c : ℝ) (hc : Ideal.ofBits .f32 0x3CB851EC#32 = ((c : ℝ) : EReal)) :
    keep ((D : ℝ) : EReal) = if 0 < D ∧ D < c then ((Real.sqrt D : ℝ) : EReal) else ((0 : ℝ) : EReal) := by
  unfold keep
  rw [hc, lit_zero, cmp_olt_coe, cmp_ogt_coe, and_bool, sel_bool]
  by_cases h2 : 0 < D
  · by_cases h1 : D < c
    · have hb : (decide (D < c) && decide (0 < D)) = true := by simp [h1, h2]
      rw [if_pos hb, if_pos (show 0 < D ∧ D < c from ⟨h2, h1⟩), mul_rsqrt_coe D h2]
    · have hb : ¬(decide (D < c) && decide (0 < D)) = true := by simp [h1]
      rw [if_neg hb, if_neg (show ¬(0 < D ∧ D < c) from fun h => h1 h.2)]
  · have hb : ¬(decide (D < c) && decide (0 < D)) = true := by simp [h2]
    rw [if_neg hb, if_neg (show ¬(0 < D ∧ D < c) from fun h => h2 h.1)]

/-- The second reading's value at a real squared distance, the diagonal's bit given as a Boolean. -/
theorem ref_coe (M c : ℝ) (hM : 0 ≤ M) (b : Bool) :
    Scalar.select (IntOp.andi (Ideal.cmp .olt ((M : ℝ) : EReal) ((c : ℝ) : EReal)) (BitVec.ofBool b))
      (Ideal.sqrt (Scalar.select (IntOp.andi (Ideal.cmp .olt ((M : ℝ) : EReal) ((c : ℝ) : EReal)) (BitVec.ofBool b)) ((M : ℝ) : EReal) ((1 : ℝ) : EReal)))
      ((0 : ℝ) : EReal)
    = if b = true ∧ M < c then ((Real.sqrt M : ℝ) : EReal) else ((0 : ℝ) : EReal) := by
  rw [cmp_olt_coe, and_bool, sel_bool, sel_bool]
  by_cases h : b = true ∧ M < c
  · have hb : (decide (M < c) && b) = true := by simp [h.1, h.2]
    rw [if_pos hb, if_pos hb, if_pos h, sqrt_coe M hM]
  · have hb : ¬(decide (M < c) && b) = true := by
      intro hh
      apply h
      simp only [Bool.and_eq_true, decide_eq_true_eq] at hh
      exact ⟨hh.2, hh.1⟩
    rw [if_neg hb, if_neg h]

theorem esum3 (f : Fin 3 → EReal) : ∑ k : Fin 3, f k = f 0 + f 1 + f 2 := by
  simp [Fin.sum_univ_succ, add_assoc]

theorem agree (X : Pos) (hfin : ∀ a, ∃ r : ℝ, X a = (r : EReal)) (i j : Fin 4096) :
    refEntry X i j = nbr X (ix2 i j) := by
  choose x hx using hfin
  obtain ⟨c, hc0, hc⟩ := lit_cut
  -- the squared distance as a real number
  set D : ℝ := (x (ix2 i 0) * x (ix2 i 0) + x (ix2 i 1) * x (ix2 i 1) + x (ix2 i 2) * x (ix2 i 2))
      + (x (ix2 j 0) * x (ix2 j 0) + x (ix2 j 1) * x (ix2 j 1) + x (ix2 j 2) * x (ix2 j 2))
      - 2 * (x (ix2 i 0) * x (ix2 j 0) + x (ix2 i 1) * x (ix2 j 1) + x (ix2 i 2) * x (ix2 j 2)) with hD
  have hK : dist2 X i j = ((D : ℝ) : EReal) := by
    unfold dist2 sqn cross
    rw [esum3, lit_negTwo]
    simp only [hx, ← EReal.coe_mul, ← EReal.coe_add]
    rw [hD]
    exact congrArg _ (by ring)
  have hR : sqnR X i + sqnR X j - Ideal.ofBits .f32 0x40000000#32 * dotR X i j = ((D : ℝ) : EReal) := by
    unfold sqnR dotR
    rw [esum3, esum3, esum3, lit_two, lit_zero]
    simp only [hx, ← EReal.coe_mul, ← EReal.coe_add, ← EReal.coe_sub]
    rw [hD]
    exact congrArg _ (by ring)
  have hmax : max ((D : ℝ) : EReal) ((0 : ℝ) : EReal) = ((max D 0 : ℝ) : EReal) := by
    rcases le_total D 0 with h | h
    · rw [max_eq_right h, max_eq_right (EReal.coe_le_coe_iff.mpr h)]
    · rw [max_eq_left h, max_eq_left (EReal.coe_le_coe_iff.mpr h)]
  have hR' : dist2R X i j = ((max D 0 : ℝ) : EReal) := by
    unfold dist2R
    rw [hR, lit_zero, hmax]
  have hn : nbr X (ix2 i j) = if i.val = j.val then (0 : EReal) else keep (dist2 X i j) := rfl
  rw [hn, hK, keep_coe D c hc]
  unfold refEntry maskR
  rw [hR', hc, lit_zero, lit_one, word_eq, not_bool, ref_coe (max D 0) c (le_max_right _ _)]
  by_cases hij : i.val = j.val
  · have hL : ¬((!decide (i.val = j.val)) = true ∧ max D 0 < c) := by simp [hij]
    rw [if_pos hij, if_neg hL]
    exact EReal.coe_zero
  · have hb : (!decide (i.val = j.val)) = true := by simp [hij]
    rw [if_neg hij]
    by_cases h2 : 0 < D
    · rw [max_eq_left h2.le]
      by_cases h1 : D < c
      · rw [if_pos (show (!decide (i.val = j.val)) = true ∧ D < c from ⟨hb, h1⟩), if_pos (show 0 < D ∧ D < c from ⟨h2, h1⟩)]
      · rw [if_neg (show ¬((!decide (i.val = j.val)) = true ∧ D < c) from fun h => h1 h.2),
          if_neg (show ¬(0 < D ∧ D < c) from fun h => h1 h.2)]
    · rw [max_eq_right (not_lt.mp h2), if_neg (show ¬(0 < D ∧ D < c) from fun h => h2 h.1),
        if_pos (show (!decide (i.val = j.val)) = true ∧ (0 : ℝ) < c from ⟨hb, hc0⟩), Real.sqrt_zero]

end Cert.Nbr

end
-- ==== Proof.Nbr.Finite.lean ====
/-
  Finite positions are real numbers. The precondition says, of every coordinate x of every position, that |x| < +inf
  (all of these joined by "and" into one bit, which is 1). On the extended reals |x| = max x (-x) is +inf exactly at the two
  infinities, so every coordinate is a real number.
-/
import Mathlib
import proofs.«143828_g38766374814086_cont_8to1_b_1182_20_alg».proof.Pre_finite_inputs
import Idealize.ShloMosaic.Lib.ReduceAll
import Idealize.ShloMosaic.Lib.IdealHost
import Idealize.ShloMosaic.Lib.ValueIdx
import Idealize.ShloMosaic.PureOps.Ideal.Laws

noncomputable section

namespace Cert.Pre_finite_inputs.Finite

open Cert.Pre_finite_inputs Idealize.ShloMosaic Idealize.ShloMosaic.ValueIdx

instance : Subsingleton S_.Idx := ⟨fun a b => funext fun d => d.elim0⟩

theorem lit_inf : Ideal.ofBits .f32 0x7F800000#32 = (⊤ : EReal) := by
  simp [Ideal.ofBits, Ideal.ieee]

/-- An extended real whose absolute value is below +inf is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- Under the precondition every coordinate of every position is a real number. -/
theorem real_of_pre [Facts] (X : FVec Ideal S4096x3 .f32) (h : fn (F := Ideal) X = fun _ => 1#1) (a : S4096x3.Idx) :
    ∃ r : ℝ, X a = (r : EReal) := by
  have h0 := congrFun h ix0
  dsimp only [fn] at h0
  have hall := Host.reduce_andi_all _ _ Facts.reducesTo_S4096x3_S_d0_1 Facts.h_S_ ix0 h0 a
  have hcmp : Ideal.cmp .olt (max (X a) (-(X a))) (Ideal.ofBits .f32 0x7F800000#32) = 1#1 := by
    have e : broadcastInDim S4096x3 ![] Facts.bcast_S_S4096x3 (constant (F := Ideal) S_ .f32 0x7F800000#32) a
        = Ideal.ofBits .f32 0x7F800000#32 := broadcastInDim_scalar_apply _ _ a
    have hall' : FloatOps.cmpf (F := Ideal) .olt (FloatOps.hostAbsf (X a))
        (broadcastInDim S4096x3 ![] Facts.bcast_S_S4096x3 (constant (F := Ideal) S_ .f32 0x7F800000#32) a) = 1#1 := hall
    rw [e] at hall'
    exact hall'
  rw [lit_inf] at hcmp
  apply real_of_abs_lt_top
  by_contra hnot
  have : Ideal.cmp .olt (max (X a) (-(X a))) (⊤ : EReal) = 0#1 := by
    show BitVec.ofBool (decide (max (X a) (-(X a)) < ⊤)) = 0#1
    rw [decide_eq_false hnot]
    rfl
  rw [this] at hcmp
  exact absurd hcmp (by decide)

end Cert.Pre_finite_inputs.Finite

end
-- ==== Proof.lean ====
/-
  The neighbour-distance kernel against its reference.
  The kernel walks eight grid points, each producing 512 rows of the 4096 x 4096 matrix of pairwise distances below a cutoff.
  It reads the positions through two windows on one array (the point's block of rows, and the whole array once), which hold
  the array at one half share each; at the first point it fills two scratch buffers from the whole array, and every point
  reads them. So the programs run to the end and the positions end unchanged (both the word-level program and its idealized
  reading: one argument, written once for any float instance). On the extended reals the kernel's result is the matrix
  "0 on the diagonal, else D * D^(-1/2) when 0 < D < c, else 0" of the squared distances D, and the reference's is
  "sqrt (max D 0) when that is below c and off the diagonal, else 0"; on finite positions the two are one function.
  The idealized program is the kernel's own text read on the extended reals (no rewrite was applied), so the fourth
  conjunct is trivial.
-/
import proofs.«143828_g38766374814086_cont_8to1_b_1182_20_alg».proof.Defs
import proofs.«143828_g38766374814086_cont_8to1_b_1182_20_alg».proof.Proof.Gen.Kernel
import proofs.«143828_g38766374814086_cont_8to1_b_1182_20_alg».proof.Proof.Gen.KernelIdeal
import proofs.«143828_g38766374814086_cont_8to1_b_1182_20_alg».proof.Proof.Gen.ReferenceIdeal
import proofs.«143828_g38766374814086_cont_8to1_b_1182_20_alg».proof.Proof.Gen.Pre_finite_inputs
import proofs.«143828_g38766374814086_cont_8to1_b_1182_20_alg».proof.Proof.Word.Region
import proofs.«143828_g38766374814086_cont_8to1_b_1182_20_alg».proof.Proof.Ideal.Final
import proofs.«143828_g38766374814086_cont_8to1_b_1182_20_alg».proof.Proof.Ref.Entry
import proofs.«143828_g38766374814086_cont_8to1_b_1182_20_alg».proof.Proof.Nbr.Agree
import proofs.«143828_g38766374814086_cont_8to1_b_1182_20_alg».proof.Proof.Nbr.Finite
import Idealize.ShloMosaic.Adequacy
import Idealize.ShloMosaic.Init

noncomputable section

namespace Cert.Proof

open Idealize.ShloMosaic Idealize.ShloMosaic.TcCoe Idealize.SL.Sem

/-- The word-level kernel runs and leaves the positions unchanged. -/
theorem frame_p : Cert.frame_Kernel := fun m ρ _ => Cert.Kernel.Body.frame m ρ

/-- So does its reading on the extended reals. -/
theorem frame_pi : Cert.frame_KernelIdeal := fun m ρ _ => Cert.KernelIdeal.Body.frame m ρ

/-- The reference runs and leaves the positions unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No rewrite was applied in reading the kernel on the extended reals. -/
theorem preserves : Cert.preserves_Kernel_KernelIdeal := trivial

/-- From memories that agree on the positions, both programs end with the neighbour matrix of the positions: the kernel
    by its blocks, the reference entry by entry, the two readings joined on finite positions. -/
theorem algebraic : Cert.algebraic_KernelIdeal_ReferenceIdeal := by
  intro m ρ m' ρ' hpre hagree
  refine ⟨fun c => Cert.Nbr.nbr (m ((c.tc : Thread Cert.KernelIdeal.nD Cert.KernelIdeal.τ).loc Cert.KernelIdeal.main_arg0)),
    Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, hagree c]
  funext y
  obtain ⟨i, j, rfl⟩ : ∃ (i j : Fin 4096), y = ValueIdx.ix2 i j := ⟨y 0, y 1, ValueIdx.eq_ix2 y⟩
  rw [Cert.ReferenceIdeal.Entry.ref_apply]
  exact Cert.Nbr.agree _ (Cert.Pre_finite_inputs.Finite.real_of_pre _ (hpre c)) i j

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
